-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S_ : Shape := ⟨0, ![]⟩

class Facts : Prop where
  bcast_S_S2048x49x512 : S_.BroadcastsInDim S2048x49x512 (![] : Fin 0 → Fin S2048x49x512.rank)
  reducesTo_S2048x49x512_S_d0_1_2 : S2048x49x512.ReducesTo [0, 1, 2] S_
  h_S_ : 0 < S_.numel
  bcast_S_S169x16 : S_.BroadcastsInDim S169x16 (![] : Fin 0 → Fin S169x16.rank)
  reducesTo_S169x16_S_d0_1 : S169x16.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S2048x49x512 .f32) (main_arg1 : FVec F S169x16 .f32) (main_arg2 : FVec F S1536x512 .f32) (main_arg3 : FVec F S1536 .f32) (main_arg4 : FVec F S512x512 .f32) (main_arg5 : FVec F S512 .f32) (main_arg6 : IVec S49x49 32) : IVec S_ 1 :=
  let main_v0 : FVec F S2048x49x512 .f32 := Host.absf main_arg0
  let main_cst : FVec F S_ .f32 := constant S_ .f32 0x7F800000#32
  let main_v1 : FVec F S2048x49x512 .f32 := broadcastInDim S2048x49x512 ![] bcast_S_S2048x49x512 main_cst
  let main_v2 : IVec S2048x49x512 1 := cmpf .olt main_v0 main_v1
  let main_c : IVec S_ 1 := constantI S_ 1 1#1
  let main_v3 : IVec S_ 1 := (fun x v => Host.reduce IntOp.andi x v reducesTo_S2048x49x512_S_d0_1_2 h_S_) main_v2 main_c
  let main_v4 : FVec F S169x16 .f32 := Host.absf main_arg1
  let main_cst_0 : FVec F S_ .f32 := constant S_ .f32 0x7F800000#32
  let main_v5 : FVec F S169x16 .f32 := broadcastInDim S169x16 ![] bcast_S_S169x16 main_cst_0
  let main_v6 : IVec S169x16 1 := cmpf .olt main_v4 main_v5
  let main_c_1 : IVec S_ 1 := constantI S_ 1 1#1
  let main_v7 : IVec S_ 1 := (fun x v => Host.reduce IntOp.andi x v reducesTo_S169x16_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S8x49x512 : Shape := ⟨3, ![8, 49, 512]⟩
abbrev S392x512 : Shape := ⟨2, ![392, 512]⟩
abbrev S512x1536 : Shape := ⟨2, ![512, 1536]⟩
abbrev S392x1536 : Shape := ⟨2, ![392, 1536]⟩
abbrev S1x1536 : Shape := ⟨2, ![1, 1536]⟩
abbrev S8x49x16x32 : Shape := ⟨4, ![8, 49, 16, 32]⟩
abbrev S8x16x49x32 : Shape := ⟨4, ![8, 16, 49, 32]⟩
abbrev S128x49x32 : Shape := ⟨3, ![128, 49, 32]⟩
abbrev S128x49x49 : Shape := ⟨3, ![128, 49, 49]⟩
abbrev S1x16x49x49 : Shape := ⟨4, ![1, 16, 49, 49]⟩
abbrev S8x16x49x49 : Shape := ⟨4, ![8, 16, 49, 49]⟩
abbrev S128x49 : Shape := ⟨2, ![128, 49]⟩
abbrev S128x49x1 : Shape := ⟨3, ![128, 49, 1]⟩
abbrev S392x16x32 : Shape := ⟨3, ![392, 16, 32]⟩
abbrev S1x512 : Shape := ⟨2, ![1, 512]⟩

abbrev nBuf : Space → Nat
  | .hbm => 18
  | .vmem => 9
  | .smem => 0
  | _ => 0

abbrev bufTy : (tb : Table) → Fin (tcTables nBuf tb) → BufTy
  | .hbm, ⟨0, _⟩ => ⟨S2048x49x512, .f32⟩
  | .hbm, ⟨1, _⟩ => ⟨S169x16, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S49x49, .i32⟩
  | .hbm, ⟨7, _⟩ => ⟨S_, .i32⟩
  | .hbm, ⟨8, _⟩ => ⟨S49x49, .i32⟩
  | .hbm, ⟨9, _⟩ => ⟨S49x49, .i1⟩
  | .hbm, ⟨10, _⟩ => ⟨S_, .i32⟩
  | .hbm, ⟨11, _⟩ => ⟨S49x49, .i32⟩
  | .hbm, ⟨12, _⟩ => ⟨S49x49, .i32⟩
  | .hbm, ⟨13, _⟩ => ⟨S49x49, .i32⟩
  | .hbm, ⟨14, _⟩ => ⟨S49x49x1, .i32⟩
  | .hbm, ⟨15, _⟩ => ⟨S49x49x16, .f32⟩
  | .hbm, ⟨16, _⟩ => ⟨S16x49x49, .f32⟩
  | .hbm, ⟨17, _⟩ => ⟨S2048x49x512, .f32⟩
  | .local _ .vmem, ⟨0, _⟩ => ⟨S8x49x512, .f32⟩
  | .local _ .vmem, ⟨1, _⟩ => ⟨S8x49x512, .f32⟩
  | .local _ .vmem, ⟨2, _⟩ => ⟨S1536x512, .f32⟩
  | .local _ .vmem, ⟨3, _⟩ => ⟨S1536, .f32⟩
  | .local _ .vmem, ⟨4, _⟩ => ⟨S512x512, .f32⟩
  | .local _ .vmem, ⟨5, _⟩ => ⟨S512, .f32⟩
  | .local _ .vmem, ⟨6, _⟩ => ⟨S16x49x49, .f32⟩
  | .local _ .vmem, ⟨7, _⟩ => ⟨S8x49x512, .f32⟩
  | .local _ .vmem, ⟨8, _⟩ => ⟨S8x49x512, .f32⟩
  | _, _ => ⟨S2048x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x49x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x49x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  inb_S8x49x512_S8x49x512_0_0_0 : ∀ a, (![0, 0, 0] : Fin 3 → Nat) a + S8x49x512.size a ≤ S8x49x512.size a
  h_S8x49x512 : 0 < S8x49x512.numel
  bitsLt_bf16_f32 : FTy.bits .bf16 < FTy.bits .f32
  shapeCasts_S8x49x512_S392x512 : S8x49x512.ShapeCasts S392x512
  inb_S1536x512_S1536x512_0_0 : ∀ a, (![0, 0] : Fin 2 → Nat) a + S1536x512.size a ≤ S1536x512.size a
  h_S1536x512 : 0 < S1536x512.numel
  transposes_S1536x512_p1_0_S512x1536 : S1536x512.Transposes [1, 0] S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S392x1536 : S1x1536.Broadcasts S392x1536
  slices_S392x1536_o0_0_S392x512 : S392x1536.Slices ![0, 0] S392x512
  slices_S392x1536_o0_512_S392x512 : S392x1536.Slices ![0, 512] S392x512
  slices_S392x1536_o0_1024_S392x512 : S392x1536.Slices ![0, 1024] S392x512
  shapeCasts_S392x512_S8x49x512 : S392x512.ShapeCasts S8x49x512
  shapeCasts_S8x49x512_S8x49x16x32 : S8x49x512.ShapeCasts S8x49x16x32
  transposes_S8x49x16x32_p0_2_1_3_S8x16x49x32 : S8x49x16x32.Transposes [0, 2, 1, 3] S8x16x49x32
  shapeCasts_S8x16x49x32_S128x49x32 : S8x16x49x32.ShapeCasts S128x49x32
  inb_S16x49x49_S16x49x49_0_0_0 : ∀ a, (![0, 0, 0] : Fin 3 → Nat) a + S16x49x49.size a ≤ S16x49x49.size a
  h_S16x49x49 : 0 < S16x49x49.numel
  shapeCasts_S16x49x49_S16x49x49 : S16x49x49.ShapeCasts S16x49x49
  shapeCasts_S16x49x49_S1x16x49x49 : S16x49x49.ShapeCasts S1x16x49x49
  shapeCasts_S1x16x49x49_S1x16x49x49 : S1x16x49x49.ShapeCasts S1x16x49x49
  broadcasts_S1x16x49x49_S8x16x49x49 : S1x16x49x49.Broadcasts S8x16x49x49
  shapeCasts_S8x16x49x49_S128x49x49 : S8x16x49x49.ShapeCasts S128x49x49
  reduces_S128x49x49_S128x49 : S128x49x49.Reduces [2] S128x49
  shapeCasts_S128x49_S128x49x1 : S128x49.ShapeCasts S128x49x1
  broadcasts_S128x49x1_S128x49x49 : S128x49x1.Broadcasts S128x49x49
  shapeCasts_S128x49x32_S8x16x49x32 : S128x49x32.ShapeCasts S8x16x49x32
  transposes_S8x16x49x32_p0_2_1_3_S8x49x16x32 : S8x16x49x32.Transposes [0, 2, 1, 3] S8x49x16x32
  shapeCasts_S8x49x16x32_S392x16x32 : S8x49x16x32.ShapeCasts S392x16x32
  shapeCasts_S392x16x32_S392x512 : S392x16x32.ShapeCasts S392x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S392x512 : S1x512.Broadcasts S392x512
  gather_S169x16_S49x49x1_S49x49x16_2_0_n_n_0_2_116_wf : GatherDims.WF S169x16 S49x49x1 S49x49x16 [2] [0] [] [0] [] 2 ![1, 16]
  dot_S392x512_S512x1536_S392x1536_1_0_0_1_n_n_wf : DotDims.WF S392x512 S512x1536 S392x1536 [1] [0] [0] [1] [] []
  dot_S128x49x32_S128x49x32_S128x49x49_2_2_1_1_0_0_wf : DotDims.WF S128x49x32 S128x49x32 S128x49x49 [2] [2] [1] [1] [0] [0]
  dot_S128x49x49_S128x49x32_S128x49x32_2_1_1_2_0_0_wf : DotDims.WF S128x49x49 S128x49x32 S128x49x32 [2] [1] [1] [2] [0] [0]
  dot_S392x512_S512x512_S392x512_1_0_0_1_n_n_wf : DotDims.WF S392x512 S512x512 S392x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x49x512.size a ≤ S2048x49x512.size a
  hwx0_0 : ∀ i : grid0.Coords, EltTy.bits .f32 = 32 ∨ (Rect.block (s := S2048x49x512) S8x49x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x49x49.size a ≤ S16x49x49.size a
  hwx0_5 : ∀ i : grid0.Coords, EltTy.bits .f32 = 32 ∨ (Rect.block (s := S16x49x49) S16x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x49x512.size a ≤ S2048x49x512.size a
  hwx0_6 : ∀ i : grid0.Coords, EltTy.bits .f32 = 32 ∨ (Rect.block (s := S2048x49x512) S8x49x512.size (cc0_transform_6 i) (hinb0_6 i)).WholeWords (EltTy.packing .f32)

variable [Facts₀]

def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S392x512_S512x1536_S392x1536_1_0_0_1_n_n : DotDims S392x512 S512x1536 S392x1536 where
  lhsContracting := [1]
  rhsContracting := [0]
  lhsNonContracting := [0]
  rhsNonContracting := [1]
  lhsBatch := []
  rhsBatch := []
  wf := dot_S392x512_S512x1536_S392x1536_1_0_0_1_n_n_wf
def dot_S128x49x32_S128x49x32_S128x49x49_2_2_1_1_0_0 : DotDims S128x49x32 S128x49x32 S128x49x49 where
  lhsContracting := [2]
  rhsContracting := [2]
  lhsNonContracting := [1]
  rhsNonContracting := [1]
  lhsBatch := [0]
  rhsBatch := [0]
  wf := dot_S128x49x32_S128x49x32_S128x49x49_2_2_1_1_0_0_wf
def dot_S128x49x49_S128x49x32_S128x49x32_2_1_1_2_0_0 : DotDims S128x49x49 S128x49x32 S128x49x32 where
  lhsContracting := [2]
  rhsContracting := [1]
  lhsNonContracting := [1]
  rhsNonContracting := [2]
  lhsBatch := [0]
  rhsBatch := [0]
  wf := dot_S128x49x49_S128x49x32_S128x49x32_2_1_1_2_0_0_wf
def dot_S392x512_S512x512_S392x512_1_0_0_1_n_n : DotDims S392x512 S512x512 S392x512 where
  lhsContracting := [1]
  rhsContracting := [0]
  lhsNonContracting := [0]
  rhsNonContracting := [1]
  lhsBatch := []
  rhsBatch := []
  wf := dot_S392x512_S512x512_S392x512_1_0_0_1_n_n_wf

abbrev win0_0 : Pipeline.Window sig grid0 :=
  Pipeline.Window.ofSpec (Memref.whole main_arg0) S8x49x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x49x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S2048x49x1536 : Shape := ⟨3, ![2048, 49, 1536]⟩
abbrev S1x1x1536 : Shape := ⟨3, ![1, 1, 1536]⟩
abbrev S2048x49x3x16x32 : Shape := ⟨5, ![2048, 49, 3, 16, 32]⟩
abbrev S3x2048x16x49x32 : Shape := ⟨5, ![3, 2048, 16, 49, 32]⟩
abbrev S1x2048x16x49x32 : Shape := ⟨5, ![1, 2048, 16, 49, 32]⟩
abbrev S2048x16x49x32 : Shape := ⟨4, ![2048, 16, 49, 32]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S1x16x49x49 : Shape := ⟨4, ![1, 16, 49, 49]⟩
abbrev S2048x16x49x49 : Shape := ⟨4, ![2048, 16, 49, 49]⟩
abbrev S2048x16x49 : Shape := ⟨3, ![2048, 16, 49]⟩
abbrev S2048x16x49x1 : Shape := ⟨4, ![2048, 16, 49, 1]⟩
abbrev S2048x49x16x32 : Shape := ⟨4, ![2048, 49, 16, 32]⟩
abbrev S1x1x512 : Shape := ⟨3, ![1, 1, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x49x512, .f32⟩
  | .hbm, ⟨1, _⟩ => ⟨S169x16, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S49x49, .i32⟩
  | .hbm, ⟨7, _⟩ => ⟨S2048x49x1536, .f32⟩
  | .hbm, ⟨8, _⟩ => ⟨S1x1x1536, .f32⟩
  | .hbm, ⟨9, _⟩ => ⟨S2048x49x1536, .f32⟩
  | .hbm, ⟨10, _⟩ => ⟨S2048x49x1536, .f32⟩
  | .hbm, ⟨11, _⟩ => ⟨S2048x49x3x16x32, .f32⟩
  | .hbm, ⟨12, _⟩ => ⟨S3x2048x16x49x32, .f32⟩
  | .hbm, ⟨13, _⟩ => ⟨S1x2048x16x49x32, .f32⟩
  | .hbm, ⟨14, _⟩ => ⟨S2048x16x49x32, .f32⟩
  | .hbm, ⟨15, _⟩ => ⟨S1x2048x16x49x32, .f32⟩
  | .hbm, ⟨16, _⟩ => ⟨S2048x16x49x32, .f32⟩
  | .hbm, ⟨17, _⟩ => ⟨S1x2048x16x49x32, .f32⟩
  | .hbm, ⟨18, _⟩ => ⟨S2048x16x49x32, .f32⟩
  | .hbm, ⟨19, _⟩ => ⟨S_, .i32⟩
  | .hbm, ⟨20, _⟩ => ⟨S49x49, .i32⟩
  | .hbm, ⟨21, _⟩ => ⟨S49x49, .i1⟩
  | .hbm, ⟨22, _⟩ => ⟨S_, .i32⟩
  | .hbm, ⟨23, _⟩ => ⟨S49x49, .i32⟩
  | .hbm, ⟨24, _⟩ => ⟨S49x49, .i32⟩
  | .hbm, ⟨25, _⟩ => ⟨S49x49, .i32⟩
  | .hbm, ⟨26, _⟩ => ⟨S49x49x1, .i32⟩
  | .hbm, ⟨27, _⟩ => ⟨S49x49x16, .f32⟩
  | .hbm, ⟨28, _⟩ => ⟨S16x49x49, .f32⟩
  | .hbm, ⟨29, _⟩ => ⟨S1x16x49x49, .f32⟩
  | .hbm, ⟨30, _⟩ => ⟨S_, .f32⟩
  | .hbm, ⟨31, _⟩ => ⟨S2048x16x49x32, .f32⟩
  | .hbm, ⟨32, _⟩ => ⟨S2048x16x49x32, .f32⟩
  | .hbm, ⟨33, _⟩ => ⟨S2048x16x49x49, .f32⟩
  | .hbm, ⟨34, _⟩ => ⟨S2048x16x49x49, .f32⟩
  | .hbm, ⟨35, _⟩ => ⟨S2048x16x49x49, .f32⟩
  | .hbm, ⟨36, _⟩ => ⟨S_, .f32⟩
  | .hbm, ⟨37, _⟩ => ⟨S2048x16x49, .f32⟩
  | .hbm, ⟨38, _⟩ => ⟨S_, .f32⟩
  | .hbm, ⟨39, _⟩ => ⟨S2048x16x49, .f32⟩
  | .hbm, ⟨40, _⟩ => ⟨S2048x16x49, .f32⟩
  | .hbm, ⟨41, _⟩ => ⟨S2048x16x49x1, .f32⟩
  | .hbm, ⟨42, _⟩ => ⟨S2048x16x49x49, .f32⟩
  | .hbm, ⟨43, _⟩ => ⟨S2048x16x49x49, .f32⟩
  | .hbm, ⟨44, _⟩ => ⟨S2048x16x49x49, .f32⟩
  | .hbm, ⟨45, _⟩ => ⟨S_, .f32⟩
  | .hbm, ⟨46, _⟩ => ⟨S2048x16x49, .f32⟩
  | .hbm, ⟨47, _⟩ => ⟨S2048x16x49x1, .f32⟩
  | .hbm, ⟨48, _⟩ => ⟨S2048x16x49x49, .f32⟩
  | .hbm, ⟨49, _⟩ => ⟨S2048x16x49x49, .f32⟩
  | .hbm, ⟨50, _⟩ => ⟨S2048x16x49x32, .f32⟩
  | .hbm, ⟨51, _⟩ => ⟨S2048x49x16x32, .f32⟩
  | .hbm, ⟨52, _⟩ => ⟨S2048x49x512, .f32⟩
  | .hbm, ⟨53, _⟩ => ⟨S2048x49x512, .f32⟩
  | .hbm, ⟨54, _⟩ => ⟨S1x1x512, .f32⟩
  | .hbm, ⟨55, _⟩ => ⟨S2048x49x512, .f32⟩
  | .hbm, ⟨56, _⟩ => ⟨S2048x49x512, .f32⟩
  | _, _ => ⟨S2048x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x49x1536_0_1_2 : S1x1x1536.BroadcastsInDim S2048x49x1536 (![0, 1, 2] : Fin 3 → Fin S2048x49x1536.rank)
  shapeCasts_S2048x49x1536_S2048x49x3x16x32 : S2048x49x1536.ShapeCasts S2048x49x3x16x32
  transposes_S2048x49x3x16x32_S3x2048x16x49x32_2_0_3_1_4 : S2048x49x3x16x32.Transposes [2, 0, 3, 1, 4] S3x2048x16x49x32
  slices_S3x2048x16x49x32_S1x2048x16x49x32_0_0_0_0_0 : S3x2048x16x49x32.Slices ![0, 0, 0, 0, 0] S1x2048x16x49x32
  shapeCasts_S1x2048x16x49x32_S2048x16x49x32 : S1x2048x16x49x32.ShapeCasts S2048x16x49x32
  slices_S3x2048x16x49x32_S1x2048x16x49x32_1_0_0_0_0 : S3x2048x16x49x32.Slices ![1, 0, 0, 0, 0] S1x2048x16x49x32
  slices_S3x2048x16x49x32_S1x2048x16x49x32_2_0_0_0_0 : S3x2048x16x49x32.Slices ![2, 0, 0, 0, 0] S1x2048x16x49x32
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  bcast_S16x49x49_S1x16x49x49_1_2_3 : S16x49x49.BroadcastsInDim S1x16x49x49 (![1, 2, 3] : Fin 3 → Fin S1x16x49x49.rank)
  bcast_S_S2048x16x49x32 : S_.BroadcastsInDim S2048x16x49x32 (![] : Fin 0 → Fin S2048x16x49x32.rank)
  bcast_S1x16x49x49_S2048x16x49x49_0_1_2_3 : S1x16x49x49.BroadcastsInDim S2048x16x49x49 (![0, 1, 2, 3] : Fin 4 → Fin S2048x16x49x49.rank)
  reducesTo_S2048x16x49x49_S2048x16x49_d3 : S2048x16x49x49.ReducesTo [3] S2048x16x49
  h_S_ : 0 < S_.numel
  bcast_S_S2048x16x49 : S_.BroadcastsInDim S2048x16x49 (![] : Fin 0 → Fin S2048x16x49.rank)
  bcast_S2048x16x49_S2048x16x49x1_0_1_2 : S2048x16x49.BroadcastsInDim S2048x16x49x1 (![0, 1, 2] : Fin 3 → Fin S2048x16x49x1.rank)
  bcast_S2048x16x49x1_S2048x16x49x49_0_1_2_3 : S2048x16x49x1.BroadcastsInDim S2048x16x49x49 (![0, 1, 2, 3] : Fin 4 → Fin S2048x16x49x49.rank)
  transposes_S2048x16x49x32_S2048x49x16x32_0_2_1_3 : S2048x16x49x32.Transposes [0, 2, 1, 3] S2048x49x16x32
  shapeCasts_S2048x49x16x32_S2048x49x512 : S2048x49x16x32.ShapeCasts S2048x49x512
  bcast_S512_S1x1x512_2 : S512.BroadcastsInDim S1x1x512 (![2] : Fin 1 → Fin S1x1x512.rank)
  bcast_S1x1x512_S2048x49x512_0_1_2 : S1x1x512.BroadcastsInDim S2048x49x512 (![0, 1, 2] : Fin 3 → Fin S2048x49x512.rank)
  dot_S2048x49x512_S1536x512_S2048x49x1536_2_1_01_0_n_n_wf : DotDims.WF S2048x49x512 S1536x512 S2048x49x1536 [2] [1] [0, 1] [0] [] []
  gather_S169x16_S49x49x1_S49x49x16_2_0_n_n_0_2_116_wf : GatherDims.WF S169x16 S49x49x1 S49x49x16 [2] [0] [] [0] [] 2 ![1, 16]
  dot_S2048x16x49x32_S2048x16x49x32_S2048x16x49x49_3_3_2_2_01_01_wf : DotDims.WF S2048x16x49x32 S2048x16x49x32 S2048x16x49x49 [3] [3] [2] [2] [0, 1] [0, 1]
  dot_S2048x16x49x49_S2048x16x49x32_S2048x16x49x32_3_2_2_3_01_01_wf : DotDims.WF S2048x16x49x49 S2048x16x49x32 S2048x16x49x32 [3] [2] [2] [3] [0, 1] [0, 1]
  dot_S2048x49x512_S512x512_S2048x49x512_2_1_01_0_n_n_wf : DotDims.WF S2048x49x512 S512x512 S2048x49x512 [2] [1] [0, 1] [0] [] []

variable [Facts₀]

def dot_S2048x49x512_S1536x512_S2048x49x1536_2_1_01_0_n_n : DotDims S2048x49x512 S1536x512 S2048x49x1536 where
  lhsContracting := [2]
  rhsContracting := [1]
  lhsNonContracting := [0, 1]
  rhsNonContracting := [0]
  lhsBatch := []
  rhsBatch := []
  wf := dot_S2048x49x512_S1536x512_S2048x49x1536_2_1_01_0_n_n_wf
def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S2048x16x49x32_S2048x16x49x32_S2048x16x49x49_3_3_2_2_01_01 : DotDims S2048x16x49x32 S2048x16x49x32 S2048x16x49x49 where
  lhsContracting := [3]
  rhsContracting := [3]
  lhsNonContracting := [2]
  rhsNonContracting := [2]
  lhsBatch := [0, 1]
  rhsBatch := [0, 1]
  wf := dot_S2048x16x49x32_S2048x16x49x32_S2048x16x49x49_3_3_2_2_01_01_wf
def dot_S2048x16x49x49_S2048x16x49x32_S2048x16x49x32_3_2_2_3_01_01 : DotDims S2048x16x49x49 S2048x16x49x32 S2048x16x49x32 where
  lhsContracting := [3]
  rhsContracting := [2]
  lhsNonContracting := [2]
  rhsNonContracting := [3]
  lhsBatch := [0, 1]
  rhsBatch := [0, 1]
  wf := dot_S2048x16x49x49_S2048x16x49x32_S2048x16x49x32_3_2_2_3_01_01_wf
def dot_S2048x49x512_S512x512_S2048x49x512_2_1_01_0_n_n : DotDims S2048x49x512 S512x512 S2048x49x512 where
  lhsContracting := [2]
  rhsContracting := [1]
  lhsNonContracting := [0, 1]
  rhsNonContracting := [0]
  lhsBatch := []
  rhsBatch := []
  wf := dot_S2048x49x512_S512x512_S2048x49x512_2_1_01_0_n_n_wf

class Facts : Prop extends Facts₀ where

variable [Facts]
-- ==== Proof.KernelMatmuls.lean ====
/-
  The kernel body's four matrix products, each into a zero accumulator, read at explicit coordinates as a sum over the
  contracted coordinate: the fused projection (rows of 8·49 tokens against 1536 columns, contracting the 512 channels),
  the per-head scores (contracting the 32 lanes), the per-head weighted averages (contracting the 49 tokens), and the
  output projection (contracting the 512 merged channels). Each operand index of a product has one coordinate per axis:
  a batch or free axis takes the result index's coordinate, the contracted axis the summation variable; the first
  lemmas say so axis by axis, the last of each group is the product read as the sum.
-/
import proofs.«105897_j84679575208277_2_alg».proof.Proof.Gen.KernelIdeal
import Idealize.ShloMosaic.Lib.ValueIdx
import Idealize.ShloMosaic.PureOps.Ideal.Laws

noncomputable section

namespace Cert.KernelIdeal.Block

open Cert.KernelIdeal Idealize.ShloMosaic Idealize.ShloMosaic.ValueIdx
open scoped BigOperators
theorem matmul_qkv_apply_lhs_0 (j : S392x1536.Idx) (q : dot_S392x512_S512x1536_S392x1536_1_0_0_1_n_n.contr.Idx) :
    (dot_S392x512_S512x1536_S392x1536_1_0_0_1_n_n.lhsIdx j q 0).val = (j 0).val := by
  unfold DotDims.lhsIdx
  rw [dif_neg (show ¬(0 : Fin S392x512.rank) ∈ dot_S392x512_S512x1536_S392x1536_1_0_0_1_n_n.lhsBatch by decide), dif_pos (show (0 : Fin S392x512.rank) ∈ dot_S392x512_S512x1536_S392x1536_1_0_0_1_n_n.lhsNonContracting by decide)]
  rfl
theorem matmul_qkv_apply_lhs_1 (j : S392x1536.Idx) (q : dot_S392x512_S512x1536_S392x1536_1_0_0_1_n_n.contr.Idx) :
    (dot_S392x512_S512x1536_S392x1536_1_0_0_1_n_n.lhsIdx j q 1).val = (q ⟨0, by decide⟩).val :=
  dot_S392x512_S512x1536_S392x1536_1_0_0_1_n_n.lhsIdx_val_of_single rfl j q
theorem matmul_qkv_apply_rhs_0 (j : S392x1536.Idx) (q : dot_S392x512_S512x1536_S392x1536_1_0_0_1_n_n.contr.Idx) :
    (dot_S392x512_S512x1536_S392x1536_1_0_0_1_n_n.rhsIdx j q 0).val = (q ⟨0, by decide⟩).val :=
  dot_S392x512_S512x1536_S392x1536_1_0_0_1_n_n.rhsIdx_val_of_single rfl j q
theorem matmul_qkv_apply_rhs_1 (j : S392x1536.Idx) (q : dot_S392x512_S512x1536_S392x1536_1_0_0_1_n_n.contr.Idx) :
    (dot_S392x512_S512x1536_S392x1536_1_0_0_1_n_n.rhsIdx j q 1).val = (j 1).val := by
  unfold DotDims.rhsIdx
  rw [dif_neg (show ¬(1 : Fin S512x1536.rank) ∈ dot_S392x512_S512x1536_S392x1536_1_0_0_1_n_n.rhsBatch by decide), dif_pos (show (1 : Fin S512x1536.rank) ∈ dot_S392x512_S512x1536_S392x1536_1_0_0_1_n_n.rhsNonContracting by decide)]
  rfl

/-- The fused projection: token row `i`, column `o`, over the 512 channels. -/
theorem matmul_qkv_apply (l : FVec Ideal S392x512 .bf16) (r : FVec Ideal S512x1536 .bf16) (i : Fin 392) (o : Fin 1536) :
    matmul dot_S392x512_S512x1536_S392x1536_1_0_0_1_n_n none l r (constant (F := Ideal) S392x1536 .f32 0x00000000#32) (ix2 i o)
      = ∑ k : Fin 512, l (ix2 i k) * r (ix2 k o) := by
  simp only [matmul]
  rw [Ideal.matmul_constant_zero_apply, ← Equiv.sum_comp (contrEquiv1 dot_S392x512_S512x1536_S392x1536_1_0_0_1_n_n 512 rfl rfl).symm]
  refine Finset.sum_congr rfl fun k _ => ?_
  have hk := contrEquiv1_symm_val dot_S392x512_S512x1536_S392x1536_1_0_0_1_n_n 512 rfl rfl k
  have el : dot_S392x512_S512x1536_S392x1536_1_0_0_1_n_n.lhsIdx (ix2 i o) ((contrEquiv1 dot_S392x512_S512x1536_S392x1536_1_0_0_1_n_n 512 rfl rfl).symm k) = ix2 i k :=
    funext fun a => Fin.ext (by
      match a with
      | ⟨0, _⟩ => exact matmul_qkv_apply_lhs_0 _ _
      | ⟨1, _⟩ => exact (matmul_qkv_apply_lhs_1 _ _).trans hk)
  have er : dot_S392x512_S512x1536_S392x1536_1_0_0_1_n_n.rhsIdx (ix2 i o) ((contrEquiv1 dot_S392x512_S512x1536_S392x1536_1_0_0_1_n_n 512 rfl rfl).symm k) = ix2 k o :=
    funext fun a => Fin.ext (by
      match a with
      | ⟨0, _⟩ => exact (matmul_qkv_apply_rhs_0 _ _).trans hk
      | ⟨1, _⟩ => exact matmul_qkv_apply_rhs_1 _ _)
  rw [el, er]

theorem matmul_scores_apply_lhs_0 (j : S128x49x49.Idx) (q : dot_S128x49x32_S128x49x32_S128x49x49_2_2_1_1_0_0.contr.Idx) :
    (dot_S128x49x32_S128x49x32_S128x49x49_2_2_1_1_0_0.lhsIdx j q 0).val = (j 0).val := by
  unfold DotDims.lhsIdx
  rw [dif_pos (show (0 : Fin S128x49x32.rank) ∈ dot_S128x49x32_S128x49x32_S128x49x49_2_2_1_1_0_0.lhsBatch by decide)]
  rfl
theorem matmul_scores_apply_lhs_1 (j : S128x49x49.Idx) (q : dot_S128x49x32_S128x49x32_S128x49x49_2_2_1_1_0_0.contr.Idx) :
    (dot_S128x49x32_S128x49x32_S128x49x49_2_2_1_1_0_0.lhsIdx j q 1).val = (j 1).val := by
  unfold DotDims.lhsIdx
  rw [dif_neg (show ¬(1 : Fin S128x49x32.rank) ∈ dot_S128x49x32_S128x49x32_S128x49x49_2_2_1_1_0_0.lhsBatch by decide), dif_pos (show (1 : Fin S128x49x32.rank) ∈ dot_S128x49x32_S128x49x32_S128x49x49_2_2_1_1_0_0.lhsNonContracting by decide)]
  rfl
theorem matmul_scores_apply_lhs_2 (j : S128x49x49.Idx) (q : dot_S128x49x32_S128x49x32_S128x49x49_2_2_1_1_0_0.contr.Idx) :
    (dot_S128x49x32_S128x49x32_S128x49x49_2_2_1_1_0_0.lhsIdx j q 2).val = (q ⟨0, by decide⟩).val :=
  dot_S128x49x32_S128x49x32_S128x49x49_2_2_1_1_0_0.lhsIdx_val_of_single rfl j q
theorem matmul_scores_apply_rhs_0 (j : S128x49x49.Idx) (q : dot_S128x49x32_S128x49x32_S128x49x49_2_2_1_1_0_0.contr.Idx) :
    (dot_S128x49x32_S128x49x32_S128x49x49_2_2_1_1_0_0.rhsIdx j q 0).val = (j 0).val := by
  unfold DotDims.rhsIdx
  rw [dif_pos (show (0 : Fin S128x49x32.rank) ∈ dot_S128x49x32_S128x49x32_S128x49x49_2_2_1_1_0_0.rhsBatch by decide)]
  rfl
theorem matmul_scores_apply_rhs_1 (j : S128x49x49.Idx) (q : dot_S128x49x32_S128x49x32_S128x49x49_2_2_1_1_0_0.contr.Idx) :
    (dot_S128x49x32_S128x49x32_S128x49x49_2_2_1_1_0_0.rhsIdx j q 1).val = (j 2).val := by
  unfold DotDims.rhsIdx
  rw [dif_neg (show ¬(1 : Fin S128x49x32.rank) ∈ dot_S128x49x32_S128x49x32_S128x49x49_2_2_1_1_0_0.rhsBatch by decide), dif_pos (show (1 : Fin S128x49x32.rank) ∈ dot_S128x49x32_S128x49x32_S128x49x49_2_2_1_1_0_0.rhsNonContracting by decide)]
  rfl
theorem matmul_scores_apply_rhs_2 (j : S128x49x49.Idx) (q : dot_S128x49x32_S128x49x32_S128x49x49_2_2_1_1_0_0.contr.Idx) :
    (dot_S128x49x32_S128x49x32_S128x49x49_2_2_1_1_0_0.rhsIdx j q 2).val = (q ⟨0, by decide⟩).val :=
  dot_S128x49x32_S128x49x32_S128x49x49_2_2_1_1_0_0.rhsIdx_val_of_single rfl j q

/-- The scores of one (window, head) pair `x`: tokens `n` against `m`, over the 32 lanes. -/
theorem matmul_scores_apply (l : FVec Ideal S128x49x32 .bf16) (r : FVec Ideal S128x49x32 .bf16) (x : Fin 128) (n m : Fin 49) :
    matmul dot_S128x49x32_S128x49x32_S128x49x49_2_2_1_1_0_0 none l r (constant (F := Ideal) S128x49x49 .f32 0x00000000#32) (ix3 x n m)
      = ∑ k : Fin 32, l (ix3 x n k) * r (ix3 x m k) := by
  simp only [matmul]
  rw [Ideal.matmul_constant_zero_apply, ← Equiv.sum_comp (contrEquiv1 dot_S128x49x32_S128x49x32_S128x49x49_2_2_1_1_0_0 32 rfl rfl).symm]
  refine Finset.sum_congr rfl fun k _ => ?_
  have hk := contrEquiv1_symm_val dot_S128x49x32_S128x49x32_S128x49x49_2_2_1_1_0_0 32 rfl rfl k
  have el : dot_S128x49x32_S128x49x32_S128x49x49_2_2_1_1_0_0.lhsIdx (ix3 x n m) ((contrEquiv1 dot_S128x49x32_S128x49x32_S128x49x49_2_2_1_1_0_0 32 rfl rfl).symm k) = ix3 x n k :=
    funext fun a => Fin.ext (by
      match a with
      | ⟨0, _⟩ => exact matmul_scores_apply_lhs_0 _ _
      | ⟨1, _⟩ => exact matmul_scores_apply_lhs_1 _ _
      | ⟨2, _⟩ => exact (matmul_scores_apply_lhs_2 _ _).trans hk)
  have er : dot_S128x49x32_S128x49x32_S128x49x49_2_2_1_1_0_0.rhsIdx (ix3 x n m) ((contrEquiv1 dot_S128x49x32_S128x49x32_S128x49x49_2_2_1_1_0_0 32 rfl rfl).symm k) = ix3 x m k :=
    funext fun a => Fin.ext (by
      match a with
      | ⟨0, _⟩ => exact matmul_scores_apply_rhs_0 _ _
      | ⟨1, _⟩ => exact matmul_scores_apply_rhs_1 _ _
      | ⟨2, _⟩ => exact (matmul_scores_apply_rhs_2 _ _).trans hk)
  rw [el, er]

theorem matmul_ctx_apply_lhs_0 (j : S128x49x32.Idx) (q : dot_S128x49x49_S128x49x32_S128x49x32_2_1_1_2_0_0.contr.Idx) :
    (dot_S128x49x49_S128x49x32_S128x49x32_2_1_1_2_0_0.lhsIdx j q 0).val = (j 0).val := by
  unfold DotDims.lhsIdx
  rw [dif_pos (show (0 : Fin S128x49x49.rank) ∈ dot_S128x49x49_S128x49x32_S128x49x32_2_1_1_2_0_0.lhsBatch by decide)]
  rfl
theorem matmul_ctx_apply_lhs_1 (j : S128x49x32.Idx) (q : dot_S128x49x49_S128x49x32_S128x49x32_2_1_1_2_0_0.contr.Idx) :
    (dot_S128x49x49_S128x49x32_S128x49x32_2_1_1_2_0_0.lhsIdx j q 1).val = (j 1).val := by
  unfold DotDims.lhsIdx
  rw [dif_neg (show ¬(1 : Fin S128x49x49.rank) ∈ dot_S128x49x49_S128x49x32_S128x49x32_2_1_1_2_0_0.lhsBatch by decide), dif_pos (show (1 : Fin S128x49x49.rank) ∈ dot_S128x49x49_S128x49x32_S128x49x32_2_1_1_2_0_0.lhsNonContracting by decide)]
  rfl
theorem matmul_ctx_apply_lhs_2 (j : S128x49x32.Idx) (q : dot_S128x49x49_S128x49x32_S128x49x32_2_1_1_2_0_0.contr.Idx) :
    (dot_S128x49x49_S128x49x32_S128x49x32_2_1_1_2_0_0.lhsIdx j q 2).val = (q ⟨0, by decide⟩).val :=
  dot_S128x49x49_S128x49x32_S128x49x32_2_1_1_2_0_0.lhsIdx_val_of_single rfl j q
theorem matmul_ctx_apply_rhs_0 (j : S128x49x32.Idx) (q : dot_S128x49x49_S128x49x32_S128x49x32_2_1_1_2_0_0.contr.Idx) :
    (dot_S128x49x49_S128x49x32_S128x49x32_2_1_1_2_0_0.rhsIdx j q 0).val = (j 0).val := by
  unfold DotDims.rhsIdx
  rw [dif_pos (show (0 : Fin S128x49x32.rank) ∈ dot_S128x49x49_S128x49x32_S128x49x32_2_1_1_2_0_0.rhsBatch by decide)]
  rfl
theorem matmul_ctx_apply_rhs_1 (j : S128x49x32.Idx) (q : dot_S128x49x49_S128x49x32_S128x49x32_2_1_1_2_0_0.contr.Idx) :
    (dot_S128x49x49_S128x49x32_S128x49x32_2_1_1_2_0_0.rhsIdx j q 1).val = (q ⟨0, by decide⟩).val :=
  dot_S128x49x49_S128x49x32_S128x49x32_2_1_1_2_0_0.rhsIdx_val_of_single rfl j q
theorem matmul_ctx_apply_rhs_2 (j : S128x49x32.Idx) (q : dot_S128x49x49_S128x49x32_S128x49x32_2_1_1_2_0_0.contr.Idx) :
    (dot_S128x49x49_S128x49x32_S128x49x32_2_1_1_2_0_0.rhsIdx j q 2).val = (j 2).val := by
  unfold DotDims.rhsIdx
  rw [dif_neg (show ¬(2 : Fin S128x49x32.rank) ∈ dot_S128x49x49_S128x49x32_S128x49x32_2_1_1_2_0_0.rhsBatch by decide), dif_pos (show (2 : Fin S128x49x32.rank) ∈ dot_S128x49x49_S128x49x32_S128x49x32_2_1_1_2_0_0.rhsNonContracting by decide)]
  rfl

/-- The weighted average of one (window, head) pair `x`: token `n`, lane `d`, over the 49 tokens. -/
theorem matmul_ctx_apply (l : FVec Ideal S128x49x49 .bf16) (r : FVec Ideal S128x49x32 .bf16) (x : Fin 128) (n : Fin 49) (d : Fin 32) :
    matmul dot_S128x49x49_S128x49x32_S128x49x32_2_1_1_2_0_0 none l r (constant (F := Ideal) S128x49x32 .f32 0x00000000#32) (ix3 x n d)
      = ∑ k : Fin 49, l (ix3 x n k) * r (ix3 x k d) := by
  simp only [matmul]
  rw [Ideal.matmul_constant_zero_apply, ← Equiv.sum_comp (contrEquiv1 dot_S128x49x49_S128x49x32_S128x49x32_2_1_1_2_0_0 49 rfl rfl).symm]
  refine Finset.sum_congr rfl fun k _ => ?_
  have hk := contrEquiv1_symm_val dot_S128x49x49_S128x49x32_S128x49x32_2_1_1_2_0_0 49 rfl rfl k
  have el : dot_S128x49x49_S128x49x32_S128x49x32_2_1_1_2_0_0.lhsIdx (ix3 x n d) ((contrEquiv1 dot_S128x49x49_S128x49x32_S128x49x32_2_1_1_2_0_0 49 rfl rfl).symm k) = ix3 x n k :=
    funext fun a => Fin.ext (by
      match a with
      | ⟨0, _⟩ => exact matmul_ctx_apply_lhs_0 _ _
      | ⟨1, _⟩ => exact matmul_ctx_apply_lhs_1 _ _
      | ⟨2, _⟩ => exact (matmul_ctx_apply_lhs_2 _ _).trans hk)
  have er : dot_S128x49x49_S128x49x32_S128x49x32_2_1_1_2_0_0.rhsIdx (ix3 x n d) ((contrEquiv1 dot_S128x49x49_S128x49x32_S128x49x32_2_1_1_2_0_0 49 rfl rfl).symm k) = ix3 x k d :=
    funext fun a => Fin.ext (by
      match a with
      | ⟨0, _⟩ => exact matmul_ctx_apply_rhs_0 _ _
      | ⟨1, _⟩ => exact (matmul_ctx_apply_rhs_1 _ _).trans hk
      | ⟨2, _⟩ => exact matmul_ctx_apply_rhs_2 _ _)
  rw [el, er]

theorem matmul_out_apply_lhs_0 (j : S392x512.Idx) (q : dot_S392x512_S512x512_S392x512_1_0_0_1_n_n.contr.Idx) :
    (dot_S392x512_S512x512_S392x512_1_0_0_1_n_n.lhsIdx j q 0).val = (j 0).val := by
  unfold DotDims.lhsIdx
  rw [dif_neg (show ¬(0 : Fin S392x512.rank) ∈ dot_S392x512_S512x512_S392x512_1_0_0_1_n_n.lhsBatch by decide), dif_pos (show (0 : Fin S392x512.rank) ∈ dot_S392x512_S512x512_S392x512_1_0_0_1_n_n.lhsNonContracting by decide)]
  rfl
theorem matmul_out_apply_lhs_1 (j : S392x512.Idx) (q : dot_S392x512_S512x512_S392x512_1_0_0_1_n_n.contr.Idx) :
    (dot_S392x512_S512x512_S392x512_1_0_0_1_n_n.lhsIdx j q 1).val = (q ⟨0, by decide⟩).val :=
  dot_S392x512_S512x512_S392x512_1_0_0_1_n_n.lhsIdx_val_of_single rfl j q
theorem matmul_out_apply_rhs_0 (j : S392x512.Idx) (q : dot_S392x512_S512x512_S392x512_1_0_0_1_n_n.contr.Idx) :
    (dot_S392x512_S512x512_S392x512_1_0_0_1_n_n.rhsIdx j q 0).val = (q ⟨0, by decide⟩).val :=
  dot_S392x512_S512x512_S392x512_1_0_0_1_n_n.rhsIdx_val_of_single rfl j q
theorem matmul_out_apply_rhs_1 (j : S392x512.Idx) (q : dot_S392x512_S512x512_S392x512_1_0_0_1_n_n.contr.Idx) :
    (dot_S392x512_S512x512_S392x512_1_0_0_1_n_n.rhsIdx j q 1).val = (j 1).val := by
  unfold DotDims.rhsIdx
  rw [dif_neg (show ¬(1 : Fin S512x512.rank) ∈ dot_S392x512_S512x512_S392x512_1_0_0_1_n_n.rhsBatch by decide), dif_pos (show (1 : Fin S512x512.rank) ∈ dot_S392x512_S512x512_S392x512_1_0_0_1_n_n.rhsNonContracting by decide)]
  rfl

/-- The output projection: token row `i`, channel `c`, over the 512 merged channels. -/
theorem matmul_out_apply (l : FVec Ideal S392x512 .bf16) (r : FVec Ideal S512x512 .bf16) (i : Fin 392) (c : Fin 512) :
    matmul dot_S392x512_S512x512_S392x512_1_0_0_1_n_n none l r (constant (F := Ideal) S392x512 .f32 0x00000000#32) (ix2 i c)
      = ∑ k : Fin 512, l (ix2 i k) * r (ix2 k c) := by
  simp only [matmul]
  rw [Ideal.matmul_constant_zero_apply, ← Equiv.sum_comp (contrEquiv1 dot_S392x512_S512x512_S392x512_1_0_0_1_n_n 512 rfl rfl).symm]
  refine Finset.sum_congr rfl fun k _ => ?_
  have hk := contrEquiv1_symm_val dot_S392x512_S512x512_S392x512_1_0_0_1_n_n 512 rfl rfl k
  have el : dot_S392x512_S512x512_S392x512_1_0_0_1_n_n.lhsIdx (ix2 i c) ((contrEquiv1 dot_S392x512_S512x512_S392x512_1_0_0_1_n_n 512 rfl rfl).symm k) = ix2 i k :=
    funext fun a => Fin.ext (by
      match a with
      | ⟨0, _⟩ => exact matmul_out_apply_lhs_0 _ _
      | ⟨1, _⟩ => exact (matmul_out_apply_lhs_1 _ _).trans hk)
  have er : dot_S392x512_S512x512_S392x512_1_0_0_1_n_n.rhsIdx (ix2 i c) ((contrEquiv1 dot_S392x512_S512x512_S392x512_1_0_0_1_n_n 512 rfl rfl).symm k) = ix2 k c :=
    funext fun a => Fin.ext (by
      match a with
      | ⟨0, _⟩ => exact (matmul_out_apply_rhs_0 _ _).trans hk
      | ⟨1, _⟩ => exact matmul_out_apply_rhs_1 _ _)
  rw [el, er]

end Cert.KernelIdeal.Block

end
-- ==== Proof.KernelLayout.lean ====
/-
  The kernel body's changes of layout, read at explicit coordinates, for any vector they are applied to.

  A block holds 8 windows of 49 tokens. The body flattens (window b, token n) to row b·49 + n for the two big
  projections, and for attention regroups (window b, head h) to the batch coordinate b·16 + h, a head's 32 lanes being
  columns h·32 + d of one third of the fused projection. Each lemma below follows one such chain of reshapes,
  transposes, slices and broadcasts back to the entry it reads; the row-major positions on the two sides of a reshape
  are equal naturals. The last two lemmas read a reduction along the last axis of a [128, 49, 49] array as a fold,
  resp. a sum, over that axis's 49 coordinates.
-/
import proofs.«105897_j84679575208277_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Block

open Cert.KernelIdeal Idealize.ShloMosaic Idealize.ShloMosaic.ValueIdx
open scoped BigOperators

variable {α : Type}

/-- [8, 49, C] flattened to [392, C]: row b·49 + n is (b, n). -/
theorem rows512_apply (x : S8x49x512.Idx → α) (h : S8x49x512.ShapeCasts S392x512)
    (b : Fin 8) (n : Fin 49) (r : Fin 392) (hr : r.val = b.val * 49 + n.val) (k : Fin 512) :
    shapeCast S392x512 x h (ix2 r k) = x (ix3 b n k) :=
  shapeCast_apply x h (ix2 r k) (ix3 b n k) (by
    rw [Shape.rowMajor_val_three, Shape.rowMajor_val_two]
    show (b.val * 49 + n.val) * 512 + k.val = r.val * 512 + k.val
    rw [hr])

/-- … and back: [392, 512] unflattened to [8, 49, 512]. -/
theorem unrows512_apply (y : S392x512.Idx → α) (h : S392x512.ShapeCasts S8x49x512)
    (b : Fin 8) (n : Fin 49) (r : Fin 392) (hr : r.val = b.val * 49 + n.val) (c : Fin 512) :
    shapeCast S8x49x512 y h (ix3 b n c) = y (ix2 r c) :=
  shapeCast_apply y h (ix3 b n c) (ix2 r c) (by
    rw [Shape.rowMajor_val_three, Shape.rowMajor_val_two]
    show r.val * 512 + c.val = (b.val * 49 + n.val) * 512 + c.val
    rw [hr])

/-- The transposed fused weight: entry (channel, column) is the weight's (column, channel). -/
theorem transpose_wqkv_apply (x : S1536x512.Idx → α) (h : S1536x512.Transposes [1, 0] S512x1536) (k : Fin 512) (o : Fin 1536) :
    transpose S512x1536 [1, 0] x h (ix2 k o) = x (ix2 o k) :=
  transpose_apply [1, 0] x h (ix2 k o) (ix2 o k) (fun a => match a with | ⟨0, _⟩ => rfl | ⟨1, _⟩ => rfl)

/-- The transposed output weight. -/
theorem transpose_wproj_apply (x : S512x512.Idx → α) (h : S512x512.Transposes [1, 0] S512x512) (o c : Fin 512) :
    transpose S512x512 [1, 0] x h (ix2 o c) = x (ix2 c o) :=
  transpose_apply [1, 0] x h (ix2 o c) (ix2 c o) (fun a => match a with | ⟨0, _⟩ => rfl | ⟨1, _⟩ => rfl)

/-- A bias vector laid as one row and repeated down the 392 rows: every row reads the vector. -/
theorem bias_row1536_apply (v : S1536.Idx → α) (h1 : S1536.ShapeCasts S1x1536) (h2 : S1x1536.Broadcasts S392x1536)
    (r : Fin 392) (o : Fin 1536) :
    broadcastTo S392x1536 (shapeCast S1x1536 v h1) h2 (ix2 r o) = v (ix1 o) := by
  rw [broadcastTo_apply _ h2 (ix2 r o) (ix2 (0 : Fin 1) o) (fun a => match a with | ⟨0, _⟩ => rfl | ⟨1, _⟩ => rfl)]
  exact shapeCast_apply v h1 (ix2 (0 : Fin 1) o) (ix1 o) (by
    rw [Shape.rowMajor_val_one, Shape.rowMajor_val_two]
    show o.val = 0 * 1536 + o.val
    omega)

theorem bias_row512_apply (v : S512.Idx → α) (h1 : S512.ShapeCasts S1x512) (h2 : S1x512.Broadcasts S392x512)
    (r : Fin 392) (c : Fin 512) :
    broadcastTo S392x512 (shapeCast S1x512 v h1) h2 (ix2 r c) = v (ix1 c) := by
  rw [broadcastTo_apply _ h2 (ix2 r c) (ix2 (0 : Fin 1) c) (fun a => match a with | ⟨0, _⟩ => rfl | ⟨1, _⟩ => rfl)]
  exact shapeCast_apply v h1 (ix2 (0 : Fin 1) c) (ix1 c) (by
    rw [Shape.rowMajor_val_one, Shape.rowMajor_val_two]
    show c.val = 0 * 512 + c.val
    omega)

/-- One third of the fused projection regrouped by head: at (b·16 + h, n, d) it is the projection's row b·49 + n,
    column off + h·32 + d, where off is the third's first column. -/
theorem heads_apply (y : S392x1536.Idx → α) (off : Nat) (hs : S392x1536.Slices ![0, off] S392x512)
    (h1 : S392x512.ShapeCasts S8x49x512) (h2 : S8x49x512.ShapeCasts S8x49x16x32)
    (h3 : S8x49x16x32.Transposes [0, 2, 1, 3] S8x16x49x32) (h4 : S8x16x49x32.ShapeCasts S128x49x32)
    (b : Fin 8) (hd : Fin 16) (n : Fin 49) (d : Fin 32) (xh : Fin 128) (hxh : xh.val = b.val * 16 + hd.val)
    (r : Fin 392) (hr : r.val = b.val * 49 + n.val) (o : Fin 1536) (ho : o.val = off + hd.val * 32 + d.val) :
    shapeCast S128x49x32 (transpose S8x16x49x32 [0, 2, 1, 3] (shapeCast S8x49x16x32 (shapeCast S8x49x512
      (extractStridedSlice S392x512 ![0, off] y hs) h1) h2) h3) h4 (ix3 xh n d) = y (ix2 r o) := by
  have hc : hd.val * 32 + d.val < 512 := by have := hd.isLt; have := d.isLt; omega
  rw [shapeCast_apply _ h4 (ix3 xh n d) (ix4 b hd n d) (by
        rw [Shape.rowMajor_val_four, Shape.rowMajor_val_three]
        show ((b.val * 16 + hd.val) * 49 + n.val) * 32 + d.val = (xh.val * 49 + n.val) * 32 + d.val
        rw [hxh]),
      transpose_apply [0, 2, 1, 3] _ h3 (ix4 b hd n d) (ix4 b n hd d)
        (fun a => match a with | ⟨0, _⟩ => rfl | ⟨1, _⟩ => rfl | ⟨2, _⟩ => rfl | ⟨3, _⟩ => rfl),
      shapeCast_apply _ h2 (ix4 b n hd d) (ix3 b n (⟨hd.val * 32 + d.val, hc⟩ : Fin 512)) (by
        rw [Shape.rowMajor_val_three, Shape.rowMajor_val_four]
        show (b.val * 49 + n.val) * 512 + (hd.val * 32 + d.val) = ((b.val * 49 + n.val) * 16 + hd.val) * 32 + d.val
        omega),
      unrows512_apply _ h1 b n r hr,
      extractStridedSlice_apply ![0, off] y hs (ix2 r (⟨hd.val * 32 + d.val, hc⟩ : Fin 512)) (ix2 r o)
        (fun a => match a with
          | ⟨0, _⟩ => by show r.val = 0 + r.val; omega
          | ⟨1, _⟩ => by show o.val = off + (hd.val * 32 + d.val); omega)]

/-- The relative-position bias [16, 49, 49] repeated over the 8 windows and regrouped: at (b·16 + h, n, m) it is the
    bias of head h at (n, m). -/
theorem bias_heads_apply (v : S16x49x49.Idx → α) (h0 : S16x49x49.ShapeCasts S16x49x49) (h1 : S16x49x49.ShapeCasts S1x16x49x49)
    (h2 : S1x16x49x49.ShapeCasts S1x16x49x49) (h3 : S1x16x49x49.Broadcasts S8x16x49x49) (h4 : S8x16x49x49.ShapeCasts S128x49x49)
    (b : Fin 8) (hd : Fin 16) (n m : Fin 49) (xh : Fin 128) (hxh : xh.val = b.val * 16 + hd.val) :
    shapeCast S128x49x49 (broadcastTo S8x16x49x49 (shapeCast S1x16x49x49 (shapeCast S1x16x49x49 (shapeCast S16x49x49 v h0) h1) h2) h3) h4
      (ix3 xh n m) = v (ix3 hd n m) := by
  rw [shapeCast_apply _ h4 (ix3 xh n m) (ix4 b hd n m) (by
        rw [Shape.rowMajor_val_four, Shape.rowMajor_val_three]
        show ((b.val * 16 + hd.val) * 49 + n.val) * 49 + m.val = (xh.val * 49 + n.val) * 49 + m.val
        rw [hxh]),
      broadcastTo_apply _ h3 (ix4 b hd n m) (ix4 (0 : Fin 1) hd n m)
        (fun a => match a with | ⟨0, _⟩ => rfl | ⟨1, _⟩ => rfl | ⟨2, _⟩ => rfl | ⟨3, _⟩ => rfl),
      shapeCast_self, shapeCast_self]
  exact shapeCast_apply v h1 (ix4 (0 : Fin 1) hd n m) (ix3 hd n m) (by
    rw [Shape.rowMajor_val_three, Shape.rowMajor_val_four]
    show (hd.val * 49 + n.val) * 49 + m.val = ((0 * 16 + hd.val) * 49 + n.val) * 49 + m.val
    omega)

/-- A per-row quantity [128, 49] laid as a column and repeated along the row of 49: every entry of row (x, n) reads it. -/
theorem keepdims_apply (y : S128x49.Idx → α) (h1 : S128x49.ShapeCasts S128x49x1) (h2 : S128x49x1.Broadcasts S128x49x49)
    (x : Fin 128) (n m : Fin 49) :
    broadcastTo S128x49x49 (shapeCast S128x49x1 y h1) h2 (ix3 x n m) = y (ix2 x n) := by
  rw [broadcastTo_apply _ h2 (ix3 x n m) (ix3 x n (0 : Fin 1)) (fun a => match a with | ⟨0, _⟩ => rfl | ⟨1, _⟩ => rfl | ⟨2, _⟩ => rfl)]
  exact shapeCast_apply y h1 (ix3 x n (0 : Fin 1)) (ix2 x n) (by
    rw [Shape.rowMajor_val_two, Shape.rowMajor_val_three]
    show x.val * 49 + n.val = (x.val * 49 + n.val) * 1 + 0
    omega)

/-- The heads' averages [128, 49, 32] merged back to token rows: row b·49 + n, channel o is head o / 32, lane o % 32
    of window b. -/
theorem merge_apply (y : S128x49x32.Idx → α) (h1 : S128x49x32.ShapeCasts S8x16x49x32)
    (h2 : S8x16x49x32.Transposes [0, 2, 1, 3] S8x49x16x32) (h3 : S8x49x16x32.ShapeCasts S392x16x32)
    (h4 : S392x16x32.ShapeCasts S392x512)
    (b : Fin 8) (n : Fin 49) (r : Fin 392) (hr : r.val = b.val * 49 + n.val)
    (o : Fin 512) (hd : Fin 16) (d : Fin 32) (ho : o.val = hd.val * 32 + d.val) (xh : Fin 128) (hxh : xh.val = b.val * 16 + hd.val) :
    shapeCast S392x512 (shapeCast S392x16x32 (transpose S8x49x16x32 [0, 2, 1, 3] (shapeCast S8x16x49x32 y h1) h2) h3) h4 (ix2 r o)
      = y (ix3 xh n d) := by
  rw [shapeCast_apply _ h4 (ix2 r o) (ix3 r hd d) (by
        rw [Shape.rowMajor_val_three, Shape.rowMajor_val_two]
        show (r.val * 16 + hd.val) * 32 + d.val = r.val * 512 + o.val
        omega),
      shapeCast_apply _ h3 (ix3 r hd d) (ix4 b n hd d) (by
        rw [Shape.rowMajor_val_four, Shape.rowMajor_val_three]
        show ((b.val * 49 + n.val) * 16 + hd.val) * 32 + d.val = (r.val * 16 + hd.val) * 32 + d.val
        rw [hr]),
      transpose_apply [0, 2, 1, 3] _ h2 (ix4 b n hd d) (ix4 b hd n d)
        (fun a => match a with | ⟨0, _⟩ => rfl | ⟨1, _⟩ => rfl | ⟨2, _⟩ => rfl | ⟨3, _⟩ => rfl)]
  exact shapeCast_apply y h1 (ix4 b hd n d) (ix3 xh n d) (by
    rw [Shape.rowMajor_val_three, Shape.rowMajor_val_four]
    show (xh.val * 49 + n.val) * 32 + d.val = ((b.val * 16 + hd.val) * 49 + n.val) * 32 + d.val
    rw [hxh])

/-- The maximum along the last axis of a [128, 49, 49] array, at row (x, n): the fold of `max` from the accumulator's
    value over the row's 49 entries. -/
theorem rowmax_apply (y : FVec Ideal S128x49x49 .f32) (acc : BitVec 32) (h : S128x49x49.Reduces [2] S128x49)
    (hφ : FKind.Formats .f32) (hacc : acc = FKind.maximumf.neutral .f32 hφ) (x : Fin 128) (n : Fin 49) :
    multiReduction .maximumf [2] S128x49 y acc h hφ hacc (ix2 x n)
      = (Finset.univ : Finset (Fin 49)).fold max (Ideal.ofBits .f32 acc) (fun m => y (ix3 x n m)) := by
  have e : (y ∘ h.lift (ix2 x n)) = fun m : Fin 49 => y (ix3 x n m) := funext fun m => congrArg y (funext fun a =>
    Fin.ext (by match a with | ⟨0, _⟩ => rfl | ⟨1, _⟩ => rfl | ⟨2, _⟩ => rfl))
  rw [Ideal.multiReduction_maximumf_single, e]
  rfl

/-- The sum along the last axis, at row (x, n). -/
theorem rowsum_apply (y : FVec Ideal S128x49x49 .f32) (acc : BitVec 32) (h : S128x49x49.Reduces [2] S128x49)
    (hφ : FKind.Formats .f32) (hacc : acc = FKind.add.neutral .f32 hφ) (x : Fin 128) (n : Fin 49) :
    multiReduction .add [2] S128x49 y acc h hφ hacc (ix2 x n) = ∑ m : Fin 49, y (ix3 x n m) := by
  rw [Ideal.multiReduction_add_single]
  exact Finset.sum_congr rfl fun m _ => congrArg y (funext fun a =>
    Fin.ext (by match a with | ⟨0, _⟩ => rfl | ⟨1, _⟩ => rfl | ⟨2, _⟩ => rfl))

end Cert.KernelIdeal.Block

end
-- ==== Proof.WindowAttention.lean ====
/-
  Window attention over one 7×7 window, as plain functions of coordinates on the extended reals.

  One window holds 49 tokens of 512 channels. The fused projection sends token `n` to 1536 columns, laid out as
  three thirds (query, key, value) of 16 heads × 32 lanes: column `third·512 + head·32 + lane`. For each head the
  score of tokens `(n, m)` is the scaled query of `n` against the key of `m` over the 32 lanes, plus that head's
  relative-position bias at `(n, m)`; a row of scores is shifted by its maximum (taken from `-∞`), exponentiated
  and divided by the row's sum; the weights average the values of the tokens; the heads' 32 lanes are laid side by
  side again (channel `head·32 + lane`) and sent through the output projection.

  Nothing here depends on how many windows there are or how they are tiled: both programs are shown, elsewhere, to
  compute `out` of each window's tokens. The scale and the `-∞` start of the maximum are parameters (both programs
  spell them by the same bit patterns, which are never evaluated).
-/
import Idealize.ShloMosaic.PureOps.Ideal
import Idealize.ShloMosaic.PureOps.Ideal.Laws

noncomputable section

namespace Cert.WinAttn

open Idealize.ShloMosaic
open scoped BigOperators

/-- Column of the fused projection holding lane `d` of head `h` in third `s` (0 query, 1 key, 2 value). -/
def col (s : Fin 3) (h : Fin 16) (d : Fin 32) : Fin 1536 :=
  ⟨s.val * 512 + h.val * 32 + d.val, by have := s.isLt; have := h.isLt; have := d.isLt; omega⟩

theorem col_val (s : Fin 3) (h : Fin 16) (d : Fin 32) : (col s h d).val = s.val * 512 + h.val * 32 + d.val := rfl

/-- Head and lane of a merged channel `o = head·32 + lane`. -/
def headOf (o : Fin 512) : Fin 16 := ⟨o.val / 32, by have := o.isLt; omega⟩
def laneOf (o : Fin 512) : Fin 32 := ⟨o.val % 32, by omega⟩

theorem headOf_val (o : Fin 512) : (headOf o).val = o.val / 32 := rfl
theorem laneOf_val (o : Fin 512) : (laneOf o).val = o.val % 32 := rfl

section
variable (scale ninf : EReal)
variable (x : Fin 49 → Fin 512 → EReal) (wqkv : Fin 1536 → Fin 512 → EReal) (bqkv : Fin 1536 → EReal)
variable (wproj : Fin 512 → Fin 512 → EReal) (bproj : Fin 512 → EReal) (bias : Fin 16 → Fin 49 → Fin 49 → EReal)

/-- The fused query/key/value projection of token `n`, column `o`. -/
def proj (n : Fin 49) (o : Fin 1536) : EReal := (∑ c : Fin 512, x n c * wqkv o c) + bqkv o

/-- Head `h`'s score of tokens `(n, m)`: scaled query · key over the lanes, plus the bias. -/
def score (h : Fin 16) (n m : Fin 49) : EReal :=
  (∑ d : Fin 32, (proj x wqkv bqkv n (col 0 h d) * scale) * proj x wqkv bqkv m (col 1 h d)) + bias h n m

/-- The maximum of a row of scores, folded from `ninf` and met once more with `ninf`, as both programs take it. -/
def rowMax (h : Fin 16) (n : Fin 49) : EReal :=
  max ninf ((Finset.univ : Finset (Fin 49)).fold max ninf (fun m => score scale x wqkv bqkv bias h n m))

/-- A score less its row's maximum. -/
def shifted (h : Fin 16) (n m : Fin 49) : EReal :=
  score scale x wqkv bqkv bias h n m - rowMax scale ninf x wqkv bqkv bias h n

/-- The softmax weight of token `m` for token `n` in head `h`. -/
def weight (h : Fin 16) (n m : Fin 49) : EReal :=
  Ideal.div (Ideal.exp (shifted scale ninf x wqkv bqkv bias h n m))
    (∑ m' : Fin 49, Ideal.exp (shifted scale ninf x wqkv bqkv bias h n m'))

/-- Head `h`'s weighted average of the values, lane `d`, for token `n`. -/
def ctx (h : Fin 16) (n : Fin 49) (d : Fin 32) : EReal :=
  ∑ m : Fin 49, weight scale ninf x wqkv bqkv bias h n m * proj x wqkv bqkv m (col 2 h d)

/-- The window's output: the heads merged channel by channel, through the output projection. -/
def out (n : Fin 49) (c : Fin 512) : EReal :=
  (∑ o : Fin 512, ctx scale ninf x wqkv bqkv bias (headOf o) n (laneOf o) * wproj c o) + bproj c

end

end Cert.WinAttn

end
-- ==== Proof.KernelBlock.lean ====
/-
  One grid point of the kernel: a block of 8 windows goes in, and the block that comes out holds, at (window b, token n,
  channel c), the window-attention output of window b's own 49 tokens — `Cert.WinAttn.out` of row b of the input
  block, the two weight matrices, the two bias vectors and the relative-position bias, all as loaded.

  The body's text is cut into the stages of the computation, each a function of the stage before it: the fused
  projection P (rows b·49 + n); a third of P regrouped by head (batch coordinate b·16 + h); the scores; the scores less
  their row maxima; the softmax weights; the heads' weighted averages; the merge of the heads and the output projection.
  Each stage is read at explicit coordinates from the previous one; composing the readings gives the statement. The
  changes of float format in the body are the identity on the extended reals.
-/
import proofs.«105897_j84679575208277_2_alg».proof.Proof.Gen.KernelIdeal.Frame
import proofs.«105897_j84679575208277_2_alg».proof.Proof.KernelMatmuls
import proofs.«105897_j84679575208277_2_alg».proof.Proof.KernelLayout
import proofs.«105897_j84679575208277_2_alg».proof.Proof.WindowAttention

noncomputable section

namespace Cert.KernelIdeal.Block

open Cert.KernelIdeal Idealize.ShloMosaic Idealize.ShloMosaic.ValueIdx
open scoped BigOperators

open Cert.KernelIdeal.Gen

/-- Row of the flattened block holding token `n` of window `b`. -/
def rowOf (b : Fin 8) (n : Fin 49) : Fin 392 := ⟨b.val * 49 + n.val, by have := b.isLt; have := n.isLt; omega⟩
/-- Batch coordinate of head `h` of window `b`. -/
def pairOf (b : Fin 8) (h : Fin 16) : Fin 128 := ⟨b.val * 16 + h.val, by have := b.isLt; have := h.isLt; omega⟩

/-- The scale and the start of the row maximum, as the body spells them. -/
abbrev scaleV : EReal := Ideal.ofBits .f32 0x3E3504F3#32
abbrev ninfV : EReal := Ideal.ofBits .f32 0xFF800000#32

/-! ## The stages, as the body writes them -/

/-- A third of the fused projection (first column `off`) regrouped by head. -/
def headsOf (P : FVec Ideal S392x1536 .f32) (off : Nat) (hs : S392x1536.Slices ![0, off] S392x512) : FVec Ideal S128x49x32 .f32 :=
  shapeCast S128x49x32 (transpose S8x16x49x32 [0, 2, 1, 3] (shapeCast S8x49x16x32 (shapeCast S8x49x512
    (extractStridedSlice S392x512 ![0, off] P hs) shapeCasts_S392x512_S8x49x512) shapeCasts_S8x49x512_S8x49x16x32)
    transposes_S8x49x16x32_p0_2_1_3_S8x16x49x32) shapeCasts_S8x16x49x32_S128x49x32

/-- The scores: scaled queries against keys, plus the relative-position bias repeated over the windows. -/
def scoresOf (P : FVec Ideal S392x1536 .f32) (v32 : Vec Ideal S16x49x49 .f32) : FVec Ideal S128x49x49 .f32 :=
  addf (matmul dot_S128x49x32_S128x49x32_S128x49x49_2_2_1_1_0_0 none
      (truncf .bf16 (mulf (headsOf P 0 slices_S392x1536_o0_0_S392x512) (broadcast S128x49x32 (Scalar.ofBits .f32 0x3E3504F3#32))) bitsLt_bf16_f32)
      (truncf .bf16 (headsOf P 512 slices_S392x1536_o0_512_S392x512) bitsLt_bf16_f32)
      (constant S128x49x49 .f32 0x00000000#32))
    (shapeCast S128x49x49 (broadcastTo S8x16x49x49 (shapeCast S1x16x49x49 (shapeCast S1x16x49x49 (shapeCast S16x49x49 v32
      shapeCasts_S16x49x49_S16x49x49) shapeCasts_S16x49x49_S1x16x49x49) shapeCasts_S1x16x49x49_S1x16x49x49)
      broadcasts_S1x16x49x49_S8x16x49x49) shapeCasts_S8x16x49x49_S128x49x49)

/-- Scores less their row maxima. -/
def shiftedOf (S : FVec Ideal S128x49x49 .f32) : FVec Ideal S128x49x49 .f32 :=
  subf S (broadcastTo S128x49x49 (shapeCast S128x49x1 (maximumf (broadcast S128x49 (Scalar.ofBits .f32 0xFF800000#32))
    (multiReduction .maximumf [2] S128x49 S 0xFF800000#32 reduces_S128x49x49_S128x49 (.inl rfl) rfl))
    shapeCasts_S128x49_S128x49x1) broadcasts_S128x49x1_S128x49x49)

/-- The softmax weights of shifted scores. -/
def weightsOf (E : FVec Ideal S128x49x49 .f32) : FVec Ideal S128x49x49 .f32 :=
  divf (exp E) (broadcastTo S128x49x49 (shapeCast S128x49x1
    (multiReduction .add [2] S128x49 (exp E) 0x00000000#32 reduces_S128x49x49_S128x49 (.inl rfl) rfl)
    shapeCasts_S128x49_S128x49x1) broadcasts_S128x49x1_S128x49x49)

/-- The heads' weighted averages of the values. -/
def ctxOf (A : FVec Ideal S128x49x49 .f32) (Vv : FVec Ideal S128x49x32 .bf16) : FVec Ideal S128x49x32 .f32 :=
  matmul dot_S128x49x49_S128x49x32_S128x49x32_2_1_1_2_0_0 none (truncf .bf16 A bitsLt_bf16_f32) Vv (constant S128x49x32 .f32 0x00000000#32)

/-- The heads merged back to token rows, through the output projection, unflattened to the block. -/
def projOutOf (C : FVec Ideal S128x49x32 .f32) (v57 : Vec Ideal S512x512 .f32) (v61 : Vec Ideal S512 .f32) : FVec Ideal S8x49x512 .f32 :=
  shapeCast S8x49x512 (addf (matmul dot_S392x512_S512x512_S392x512_1_0_0_1_n_n none
      (truncf .bf16 (shapeCast S392x512 (shapeCast S392x16x32 (transpose S8x49x16x32 [0, 2, 1, 3] (shapeCast S8x16x49x32 C
        shapeCasts_S128x49x32_S8x16x49x32) transposes_S8x16x49x32_p0_2_1_3_S8x49x16x32) shapeCasts_S8x49x16x32_S392x16x32)
        shapeCasts_S392x16x32_S392x512) bitsLt_bf16_f32)
      (transpose S512x512 [1, 0] (truncf .bf16 v57 bitsLt_bf16_f32) transposes_S512x512_p1_0_S512x512)
      (constant S392x512 .f32 0x00000000#32))
    (broadcastTo S392x512 (shapeCast S1x512 v61 shapeCasts_S512_S1x512) broadcasts_S1x512_S392x512)) shapeCasts_S392x512_S8x49x512

/-- The body's payloads are these stages composed. -/
theorem pay3_eq (v0 : Vec Ideal S8x49x512 .f32) (v3 : Vec Ideal S1536x512 .f32) (v7 : Vec Ideal S1536 .f32) :
    k0_pay3 v0 v3 v7 = truncf .bf16 (headsOf (k0_pay2 v0 v3 v7) 1024 slices_S392x1536_o0_1024_S392x512) bitsLt_bf16_f32 := rfl
theorem pay4_eq (v0 : Vec Ideal S8x49x512 .f32) (v3 : Vec Ideal S1536x512 .f32) (v7 : Vec Ideal S1536 .f32) (v32 : Vec Ideal S16x49x49 .f32) :
    k0_pay4 v0 v3 v7 v32 = shiftedOf (scoresOf (k0_pay2 v0 v3 v7) v32) := rfl
theorem pay1_eq (v30 : FVec Ideal S128x49x32 .bf16) (v44 : FVec Ideal S128x49x49 .f32) (v57 : Vec Ideal S512x512 .f32) (v61 : Vec Ideal S512 .f32) :
    k0_pay1 v30 v44 v57 v61 = projOutOf (ctxOf (weightsOf v44) v30) v57 v61 := rfl

/-! ## Each stage at explicit coordinates -/

/-- The fused projection of token `n` of window `b`. -/
theorem pay2_apply (v0 : Vec Ideal S8x49x512 .f32) (v3 : Vec Ideal S1536x512 .f32) (v7 : Vec Ideal S1536 .f32)
    (b : Fin 8) (n : Fin 49) (o : Fin 1536) :
    k0_pay2 v0 v3 v7 (ix2 (rowOf b n) o)
      = Cert.WinAttn.proj (fun n c => v0 (ix3 b n c)) (fun o c => v3 (ix2 o c)) (fun o => v7 (ix1 o)) n o := by
  unfold k0_pay2
  dsimp only
  rw [addf_apply, matmul_qkv_apply, bias_row1536_apply]
  unfold Cert.WinAttn.proj
  refine congrArg (· + _) (Finset.sum_congr rfl fun k _ => ?_)
  rw [rows512_apply _ _ b n (rowOf b n) rfl k, transpose_wqkv_apply]
  rfl

theorem headsOf_apply (P : FVec Ideal S392x1536 .f32) (off : Nat) (hs : S392x1536.Slices ![0, off] S392x512)
    (b : Fin 8) (hd : Fin 16) (n : Fin 49) (d : Fin 32) (o : Fin 1536) (ho : o.val = off + hd.val * 32 + d.val) :
    headsOf P off hs (ix3 (pairOf b hd) n d) = P (ix2 (rowOf b n) o) :=
  heads_apply P off hs _ _ _ _ b hd n d (pairOf b hd) rfl (rowOf b n) rfl o ho

theorem scoresOf_apply (xs : Fin 8 → Fin 49 → Fin 512 → EReal) (wq : Fin 1536 → Fin 512 → EReal) (bq : Fin 1536 → EReal)
    (P : FVec Ideal S392x1536 .f32) (hP : ∀ b n o, P (ix2 (rowOf b n) o) = Cert.WinAttn.proj (xs b) wq bq n o)
    (v32 : Vec Ideal S16x49x49 .f32) (b : Fin 8) (hd : Fin 16) (n m : Fin 49) :
    scoresOf P v32 (ix3 (pairOf b hd) n m)
      = Cert.WinAttn.score scaleV (xs b) wq bq (fun h n m => v32 (ix3 h n m)) hd n m := by
  unfold scoresOf
  rw [addf_apply, matmul_scores_apply, bias_heads_apply _ _ _ _ _ _ b hd n m (pairOf b hd) rfl]
  unfold Cert.WinAttn.score
  refine congrArg (· + _) (Finset.sum_congr rfl fun d _ => ?_)
  rw [truncf_apply, truncf_apply, mulf_apply, broadcast_apply,
    headsOf_apply P 0 _ b hd n d (Cert.WinAttn.col 0 hd d) (by rw [Cert.WinAttn.col_val]; rfl),
    headsOf_apply P 512 _ b hd m d (Cert.WinAttn.col 1 hd d) (by rw [Cert.WinAttn.col_val]; rfl), hP, hP]
  rfl

theorem shiftedOf_apply (S : FVec Ideal S128x49x49 .f32) (x : Fin 128) (n m : Fin 49) :
    shiftedOf S (ix3 x n m) = S (ix3 x n m) - max ninfV ((Finset.univ : Finset (Fin 49)).fold max ninfV (fun m' => S (ix3 x n m'))) := by
  unfold shiftedOf
  rw [subf_apply, keepdims_apply, maximumf_apply, broadcast_apply]
  exact congrArg (fun z => S (ix3 x n m) - max ninfV z) (rowmax_apply S _ _ _ _ x n)

theorem weightsOf_apply (E : FVec Ideal S128x49x49 .f32) (x : Fin 128) (n m : Fin 49) :
    weightsOf E (ix3 x n m) = Ideal.div (Ideal.exp (E (ix3 x n m))) (∑ m' : Fin 49, Ideal.exp (E (ix3 x n m'))) := by
  unfold weightsOf
  rw [divf_apply, keepdims_apply]
  exact congrArg (fun z => Ideal.div (Ideal.exp (E (ix3 x n m))) z) (rowsum_apply (exp E) _ _ _ _ x n)

theorem ctxOf_apply (A : FVec Ideal S128x49x49 .f32) (Vv : FVec Ideal S128x49x32 .bf16) (x : Fin 128) (n : Fin 49) (d : Fin 32) :
    ctxOf A Vv (ix3 x n d) = ∑ m : Fin 49, A (ix3 x n m) * Vv (ix3 x m d) := by
  unfold ctxOf
  rw [matmul_ctx_apply]
  rfl

theorem projOutOf_apply (C : FVec Ideal S128x49x32 .f32) (v57 : Vec Ideal S512x512 .f32) (v61 : Vec Ideal S512 .f32)
    (b : Fin 8) (n : Fin 49) (c : Fin 512) :
    projOutOf C v57 v61 (ix3 b n c)
      = (∑ o : Fin 512, C (ix3 (pairOf b (Cert.WinAttn.headOf o)) n (Cert.WinAttn.laneOf o)) * v57 (ix2 c o)) + v61 (ix1 c) := by
  unfold projOutOf
  rw [unrows512_apply _ _ b n (rowOf b n) rfl c, addf_apply, matmul_out_apply, bias_row512_apply]
  refine congrArg (· + _) (Finset.sum_congr rfl fun o _ => ?_)
  rw [truncf_apply, merge_apply _ _ _ _ _ b n (rowOf b n) rfl o (Cert.WinAttn.headOf o) (Cert.WinAttn.laneOf o)
      (by rw [Cert.WinAttn.headOf_val, Cert.WinAttn.laneOf_val]; exact (Nat.div_add_mod' o.val 32).symm)
      (pairOf b (Cert.WinAttn.headOf o)) rfl,
    transpose_wproj_apply, truncf_apply]

/-! ## The block -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The body's one store is of the whole block, from whole loads: what it leaves is the payloads composed. -/
theorem out_eq_payloads (x0 : Vec Ideal S8x49x512 .f32) (x1 : Vec Ideal S1536x512 .f32) (x2 : Vec Ideal S1536 .f32)
    (x3 : Vec Ideal S512x512 .f32) (x4 : Vec Ideal S512 .f32) (x5 : Vec Ideal S16x49x49 .f32) :
    out0_6 (F := Ideal) x0 x1 x2 x3 x4 x5 = k0_pay1 (k0_pay3 x0 x1 x2) (k0_pay4 x0 x1 x2 x5) x3 x4 := by
  unfold out0_6
  rw [View.canon_unit_zero zeros3]
  simp only [View.ld_unit_zero (S := S8x49x512) zeros3, View.ld_unit_zero (S := S1536x512) zeros2,
    View.ld_unit_zero (S := S1536) zeros1, View.ld_unit_zero (S := S16x49x49) zeros3,
    View.ld_unit_zero (S := S512x512) zeros2, View.ld_unit_zero (S := S512) zeros1]

/-- What a grid point leaves at (window b, token n, channel c) of its output block. -/
theorem block_apply (x0 : Vec Ideal S8x49x512 .f32) (x1 : Vec Ideal S1536x512 .f32) (x2 : Vec Ideal S1536 .f32)
    (x3 : Vec Ideal S512x512 .f32) (x4 : Vec Ideal S512 .f32) (x5 : Vec Ideal S16x49x49 .f32)
    (b : Fin 8) (n : Fin 49) (c : Fin 512) :
    out0_6 (F := Ideal) x0 x1 x2 x3 x4 x5 (ix3 b n c)
      = Cert.WinAttn.out (Ideal.ofBits .f32 0x3E3504F3#32) (Ideal.ofBits .f32 0xFF800000#32)
          (fun n c => x0 (ix3 b n c)) (fun o c => x1 (ix2 o c)) (fun o => x2 (ix1 o)) (fun c o => x3 (ix2 c o))
          (fun c => x4 (ix1 c)) (fun h n m => x5 (ix3 h n m)) n c := by
  have hP := fun b n o => pay2_apply x0 x1 x2 b n o
  have hS : ∀ hd n m, scoresOf (k0_pay2 x0 x1 x2) x5 (ix3 (pairOf b hd) n m)
      = Cert.WinAttn.score scaleV (fun n c => x0 (ix3 b n c)) (fun o c => x1 (ix2 o c)) (fun o => x2 (ix1 o)) (fun h n m => x5 (ix3 h n m)) hd n m :=
    fun hd n m => scoresOf_apply (fun b n c => x0 (ix3 b n c)) _ _ _ hP x5 b hd n m
  have hE : ∀ hd n m, k0_pay4 x0 x1 x2 x5 (ix3 (pairOf b hd) n m)
      = Cert.WinAttn.shifted scaleV ninfV (fun n c => x0 (ix3 b n c)) (fun o c => x1 (ix2 o c)) (fun o => x2 (ix1 o)) (fun h n m => x5 (ix3 h n m)) hd n m := by
    intro hd n m
    rw [pay4_eq, shiftedOf_apply]
    unfold Cert.WinAttn.shifted Cert.WinAttn.rowMax
    rw [hS]
    simp only [hS]
  have hV : ∀ hd m d, k0_pay3 x0 x1 x2 (ix3 (pairOf b hd) m d)
      = Cert.WinAttn.proj (fun n c => x0 (ix3 b n c)) (fun o c => x1 (ix2 o c)) (fun o => x2 (ix1 o)) m (Cert.WinAttn.col 2 hd d) := by
    intro hd m d
    rw [pay3_eq, truncf_apply, headsOf_apply _ 1024 _ b hd m d (Cert.WinAttn.col 2 hd d) (by rw [Cert.WinAttn.col_val]; rfl), hP]
  rw [out_eq_payloads, pay1_eq, projOutOf_apply]
  unfold Cert.WinAttn.out
  refine congrArg (· + _) (Finset.sum_congr rfl fun o _ => ?_)
  refine congrArg (· * _) ?_
  rw [ctxOf_apply]
  unfold Cert.WinAttn.ctx
  refine Finset.sum_congr rfl fun m _ => ?_
  rw [hV, weightsOf_apply, hE]
  unfold Cert.WinAttn.weight
  simp only [hE]

end Cert.KernelIdeal.Block

end
-- ==== Proof.KernelArray.lean ====
/-
  From blocks of eight windows to the whole array, on the kernel's side.

  The kernel walks 256 grid points. At point `t` it is handed windows `8t … 8t + 7` of the token array (a block
  of eight windows, each of 49 tokens by 512 channels), the four weight arrays and the relative-position bias whole,
  and it writes back the same eight windows of the result. Granted that the body's result on one block is, window by
  window, the window attention `Cert.WinAttn.out` of that window's tokens (`BlockIsAttention`), the result array
  after the run is the one function `G`: entry `(w, n, c)` is the attention of window `w`'s tokens at token `n`,
  channel `c`. Two facts carry this: block `t`'s coordinate on the window axis is `8·t` plus the coordinate inside the
  block, the other two axes being whole; and every window `w` lies in the block of point `w / 8`, so the blocks cover
  the array.
-/
import proofs.«105897_j84679575208277_2_alg».proof.Proof.Gen.KernelIdeal.Value
import proofs.«105897_j84679575208277_2_alg».proof.Proof.WindowAttention
import Idealize.ShloMosaic.Lib.ValueIdx
import Idealize.ShloMosaic.Lib.Pipeline.Value

noncomputable section

namespace Cert.KernelIdeal.Windows

open Cert.KernelIdeal Idealize.ShloMosaic Idealize.ShloMosaic.TcCoe Idealize.SL.Sem
open Idealize.ShloMosaic.ValueIdx
open Idealize.ShloMosaic.Pipeline (Dat)

/-- The body's result on a block of eight windows is, window by window, the window attention of that window's tokens
    under the weights and the bias the block comes with. The scale of the scores and the start of the row maximum are
    the two 32-bit patterns both programs spell; they are kept as patterns and never evaluated. -/
def BlockIsAttention : Prop :=
  ∀ (x0 : Vec Ideal S8x49x512 .f32) (x1 : Vec Ideal S1536x512 .f32) (x2 : Vec Ideal S1536 .f32)
    (x3 : Vec Ideal S512x512 .f32) (x4 : Vec Ideal S512 .f32) (x5 : Vec Ideal S16x49x49 .f32)
    (b : Fin 8) (n : Fin 49) (c : Fin 512),
    Gen.out0_6 (F := Ideal) x0 x1 x2 x3 x4 x5 (ix3 b n c)
      = Cert.WinAttn.out (Ideal.ofBits .f32 0x3E3504F3#32) (Ideal.ofBits .f32 0xFF800000#32)
          (fun n c => x0 (ix3 b n c)) (fun o c => x1 (ix2 o c)) (fun o => x2 (ix1 o))
          (fun c o => x3 (ix2 c o)) (fun c => x4 (ix1 c)) (fun h n m => x5 (ix3 h n m)) n c

variable (m : (ℓ : Loc nD τ sig) → Buf (Elt Ideal) ℓ) (ρ : Dev nD → PrngReg)

/-- The result array as one function of the arrays the region finds: entry `(w, n, c)` is the attention of window `w`. -/
def G (c : Dev nD) : S2048x49x512.Idx → EReal := fun i =>
  Cert.WinAttn.out (Ideal.ofBits .f32 0x3E3504F3#32) (Ideal.ofBits .f32 0xFF800000#32)
    (fun n ch => Gen.V m c main_arg0 (ix3 (i 0) n ch)) (fun o ch => Gen.V m c main_arg2 (ix2 o ch))
    (fun o => Gen.V m c main_arg3 (ix1 o)) (fun c' o => Gen.V m c main_arg4 (ix2 c' o))
    (fun c' => Gen.V m c main_arg5 (ix1 c')) (fun h n m' => Gen.V m c main_v7 (ix3 h n m')) (i 1) (i 2)

-- The arrays the seven windows stage, in order: tokens, the two projections' weights and biases, the bias table, the result.
example : Pipeline.arrRef spec0 0 = main_arg0 := rfl
example : Pipeline.arrRef spec0 1 = main_arg2 := rfl
example : Pipeline.arrRef spec0 2 = main_arg3 := rfl
example : Pipeline.arrRef spec0 3 = main_arg4 := rfl
example : Pipeline.arrRef spec0 4 = main_arg5 := rfl
example : Pipeline.arrRef spec0 5 = main_v7 := rfl
example : Pipeline.arrRef spec0 6 = main_v8 := rfl

/-! ## Where each window's block sits -/

/-- The windows' index maps, decided once over the 256 points: the token and result windows move along the window axis
    with the point and stay at 0 on the two whole axes; the weights and the bias stay at 0 on every axis. -/
theorem blockIndex : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The window of the array that sits at place `b` of point `t`'s block of eight. -/
def windowOf (t : Fin cfg0.N) (b : Fin 8) : Fin 2048 :=
  ⟨8 * t.val + b.val, by have := t.isLt; have hN : cfg0.N = 256 := Gen.N_0; have := b.isLt; omega⟩

theorem windowOf_val (t : Fin cfg0.N) (b : Fin 8) : (windowOf t b).val = 8 * t.val + b.val := rfl

/-- Entry `(b, n, ch)` of point `t`'s result block is entry `(8t + b, n, ch)` of the result array. -/
theorem resultBlock_emb (t : Fin cfg0.N) (b : Fin 8) (n : Fin 49) (ch : Fin 512) :
    ((cfg0.win 6).blk t).view.emb (ix3 b n ch) = (ix3 (windowOf t b) n ch : S2048x49x512.Idx) := by
  obtain ⟨-, -, -, -, -, -, -, -, -, -, -, -, e0, e1, e2⟩ := blockIndex t
  funext a; apply Fin.ext
  match a with
  | ⟨0, _⟩ => show win0_6.index t (0 : Fin 3) * 8 + 1 * b.val = 8 * t.val + b.val; rw [e0]; omega
  | ⟨1, _⟩ => show win0_6.index t (1 : Fin 3) * 49 + 1 * n.val = n.val; rw [e1]; omega
  | ⟨2, _⟩ => show win0_6.index t (2 : Fin 3) * 512 + 1 * ch.val = ch.val; rw [e2]; omega

/-! ## The input blocks, read off the arrays -/

/-- Point `t`'s block of tokens is windows `8t … 8t + 7` of the token array. -/
theorem tokens_apply (c : Dev nD) (t : Fin cfg0.N) (b : Fin 8) (n : Fin 49) (ch : Fin 512) :
    (Gen.iblk m c 0 t : Vec Ideal S8x49x512 .f32) (ix3 b n ch)
      = (Gen.V m c main_arg0 : S2048x49x512.Idx → EReal) (ix3 (windowOf t b) n ch) := by
  obtain ⟨e0, e1, e2, -⟩ := blockIndex t
  unfold Gen.iblk
  rw [View.read_apply]
  show Gen.V m c main_arg0 _ = Gen.V m c main_arg0 _
  congr 1
  funext a; apply Fin.ext
  match a with
  | ⟨0, _⟩ => show win0_0.index t (0 : Fin 3) * 8 + 1 * b.val = 8 * t.val + b.val; rw [e0]; omega
  | ⟨1, _⟩ => show win0_0.index t (1 : Fin 3) * 49 + 1 * n.val = n.val; rw [e1]; omega
  | ⟨2, _⟩ => show win0_0.index t (2 : Fin 3) * 512 + 1 * ch.val = ch.val; rw [e2]; omega

/-- The fused projection's weights come whole at every point. -/
theorem wqkv_apply (c : Dev nD) (t : Fin cfg0.N) (o : Fin 1536) (ch : Fin 512) :
    (Gen.iblk m c 1 t : Vec Ideal S1536x512 .f32) (ix2 o ch)
      = (Gen.V m c main_arg2 : S1536x512.Idx → EReal) (ix2 o ch) := by
  obtain ⟨-, -, -, e0, e1, -⟩ := blockIndex t
  unfold Gen.iblk
  rw [View.read_apply]
  show Gen.V m c main_arg2 _ = Gen.V m c main_arg2 _
  congr 1
  funext a; apply Fin.ext
  match a with
  | ⟨0, _⟩ => show win0_1.index t (0 : Fin 2) * 1536 + 1 * o.val = o.val; rw [e0]; omega
  | ⟨1, _⟩ => show win0_1.index t (1 : Fin 2) * 512 + 1 * ch.val = ch.val; rw [e1]; omega

/-- So does its bias. -/
theorem bqkv_apply (c : Dev nD) (t : Fin cfg0.N) (o : Fin 1536) :
    (Gen.iblk m c 2 t : Vec Ideal S1536 .f32) (ix1 o) = (Gen.V m c main_arg3 : S1536.Idx → EReal) (ix1 o) := by
  obtain ⟨-, -, -, -, -, e0, -⟩ := blockIndex t
  unfold Gen.iblk
  rw [View.read_apply]
  show Gen.V m c main_arg3 _ = Gen.V m c main_arg3 _
  congr 1
  funext a; apply Fin.ext
  match a with
  | ⟨0, _⟩ => show win0_2.index t (0 : Fin 1) * 1536 + 1 * o.val = o.val; rw [e0]; omega

/-- The output projection's weights come whole at every point. -/
theorem wproj_apply (c : Dev nD) (t : Fin cfg0.N) (c' : Fin 512) (o : Fin 512) :
    (Gen.iblk m c 3 t : Vec Ideal S512x512 .f32) (ix2 c' o)
      = (Gen.V m c main_arg4 : S512x512.Idx → EReal) (ix2 c' o) := by
  obtain ⟨-, -, -, -, -, -, e0, e1, -⟩ := blockIndex t
  unfold Gen.iblk
  rw [View.read_apply]
  show Gen.V m c main_arg4 _ = Gen.V m c main_arg4 _
  congr 1
  funext a; apply Fin.ext
  match a with
  | ⟨0, _⟩ => show win0_3.index t (0 : Fin 2) * 512 + 1 * c'.val = c'.val; rw [e0]; omega
  | ⟨1, _⟩ => show win0_3.index t (1 : Fin 2) * 512 + 1 * o.val = o.val; rw [e1]; omega

/-- So does its bias. -/
theorem bproj_apply (c : Dev nD) (t : Fin cfg0.N) (c' : Fin 512) :
    (Gen.iblk m c 4 t : Vec Ideal S512 .f32) (ix1 c') = (Gen.V m c main_arg5 : S512.Idx → EReal) (ix1 c') := by
  obtain ⟨-, -, -, -, -, -, -, -, e0, -⟩ := blockIndex t
  unfold Gen.iblk
  rw [View.read_apply]
  show Gen.V m c main_arg5 _ = Gen.V m c main_arg5 _
  congr 1
  funext a; apply Fin.ext
  match a with
  | ⟨0, _⟩ => show win0_4.index t (0 : Fin 1) * 512 + 1 * c'.val = c'.val; rw [e0]; omega

/-- The relative-position bias, one 49 by 49 table per head, comes whole at every point. -/
theorem bias_apply (c : Dev nD) (t : Fin cfg0.N) (h : Fin 16) (n : Fin 49) (n' : Fin 49) :
    (Gen.iblk m c 5 t : Vec Ideal S16x49x49 .f32) (ix3 h n n')
      = (Gen.V m c main_v7 : S16x49x49.Idx → EReal) (ix3 h n n') := by
  obtain ⟨-, -, -, -, -, -, -, -, -, e0, e1, e2, -⟩ := blockIndex t
  unfold Gen.iblk
  rw [View.read_apply]
  show Gen.V m c main_v7 _ = Gen.V m c main_v7 _
  congr 1
  funext a; apply Fin.ext
  match a with
  | ⟨0, _⟩ => show win0_5.index t (0 : Fin 3) * 16 + 1 * h.val = h.val; rw [e0]; omega
  | ⟨1, _⟩ => show win0_5.index t (1 : Fin 3) * 49 + 1 * n.val = n.val; rw [e1]; omega
  | ⟨2, _⟩ => show win0_5.index t (2 : Fin 3) * 49 + 1 * n'.val = n'.val; rw [e2]; omega

/-! ## What a point writes back -/

/-- The result array at a window, token and channel. -/
theorem G_apply (c : Dev nD) (w : Fin 2048) (n : Fin 49) (ch : Fin 512) :
    G m c (ix3 w n ch)
      = Cert.WinAttn.out (Ideal.ofBits .f32 0x3E3504F3#32) (Ideal.ofBits .f32 0xFF800000#32)
          (fun n ch => Gen.V m c main_arg0 (ix3 w n ch)) (fun o ch => Gen.V m c main_arg2 (ix2 o ch))
          (fun o => Gen.V m c main_arg3 (ix1 o)) (fun c' o => Gen.V m c main_arg4 (ix2 c' o))
          (fun c' => Gen.V m c main_arg5 (ix1 c')) (fun h n m' => Gen.V m c main_v7 (ix3 h n m')) n ch := rfl

/-- The body's result on point `t`'s blocks, at place `b` of the eight, is the result array's window `8t + b`. -/
theorem block_apply (hblk : BlockIsAttention) (c : Dev nD) (t : Fin cfg0.N) (b : Fin 8) (n : Fin 49) (ch : Fin 512) :
    Gen.out0_6 (F := Ideal) (Gen.iblk m c 0 t) (Gen.iblk m c 1 t) (Gen.iblk m c 2 t) (Gen.iblk m c 3 t)
        (Gen.iblk m c 4 t) (Gen.iblk m c 5 t) (ix3 b n ch)
      = G m c (ix3 (windowOf t b) n ch) := by
  refine (hblk _ _ _ _ _ _ b n ch).trans ?_
  rw [G_apply]
  simp only [tokens_apply, wqkv_apply, bqkv_apply, wproj_apply, bproj_apply, bias_apply]

/-- WHAT POINT `t` WRITES BACK is block `t` of `G`: windows `8t … 8t + 7` of it. -/
theorem flushed_eq (hblk : BlockIsAttention) (c : Dev nD) (t : Fin cfg0.N) :
    (Gen.dats m 0 c).flushed 6 t = ((cfg0.win 6).blk t).view.read (Elt Ideal) (G m c) := by
  rw [Value.flushed6]
  have key : ∀ y : S8x49x512.Idx,
      Gen.out0_6 (F := Ideal) (Gen.iblk m c 0 t) (Gen.iblk m c 1 t) (Gen.iblk m c 2 t) (Gen.iblk m c 3 t)
          (Gen.iblk m c 4 t) (Gen.iblk m c 5 t) y
        = G m c (((cfg0.win 6).blk t).view.emb y) := by
    intro y
    obtain ⟨b, n, ch, rfl⟩ : ∃ (b : Fin 8) (n : Fin 49) (ch : Fin 512), y = ix3 b n ch := ⟨y 0, y 1, y 2, eq_ix3 y⟩
    rw [resultBlock_emb]
    exact block_apply m hblk c t b n ch
  funext j
  exact key _

/-! ## The blocks cover the array -/

/-- An entry of the result array is in point `t`'s block iff each coordinate is in the block's range on its axis. -/
theorem mem_block (t : Fin cfg0.N) (i : S2048x49x512.Idx) :
    i ∈ ((cfg0.win 6).blk t).view.set
      ↔ ∀ a : Fin 3, win0_6.index t a * S8x49x512.size a ≤ (i a).val
          ∧ (i a).val < win0_6.index t a * S8x49x512.size a + S8x49x512.size a := by
  show i ∈ ((View.whole main_v8).slice (win0_6.rect t)).set ↔ _
  rw [View.set_slice_whole, Rect.mem_set_unit]
  exact Iff.rfl

/-- Window `w` of the result array lies in the block of point `w / 8`, which writes back: the blocks cover the array. -/
theorem cover (i : S2048x49x512.Idx) :
    ∃ t : Fin cfg0.N, (cfg0.win 6).flush t = true ∧ i ∈ ((cfg0.win 6).blk t).view.set := by
  have hi0 : (i 0).val < 2048 := (i 0).isLt
  have hi1 : (i 1).val < 49 := (i 1).isLt
  have hi2 : (i 2).val < 512 := (i 2).isLt
  have hN : cfg0.N = 256 := Gen.N_0
  have ht : (i 0).val / 8 < cfg0.N := by omega
  obtain ⟨-, -, -, -, -, -, -, -, -, -, -, -, e0, e1, e2⟩ := blockIndex ⟨(i 0).val / 8, ht⟩
  have e0' : win0_6.index ⟨(i 0).val / 8, ht⟩ (0 : Fin 3) = (i 0).val / 8 := e0
  refine ⟨⟨(i 0).val / 8, ht⟩, Gen.flush0_6 _, ?_⟩
  rw [mem_block]
  intro a
  match a with
  | ⟨0, _⟩ =>
    show win0_6.index ⟨(i 0).val / 8, ht⟩ (0 : Fin 3) * 8 ≤ (i 0).val
      ∧ (i 0).val < win0_6.index ⟨(i 0).val / 8, ht⟩ (0 : Fin 3) * 8 + 8
    rw [e0']; omega
  | ⟨1, _⟩ =>
    show win0_6.index ⟨(i 0).val / 8, ht⟩ (1 : Fin 3) * 49 ≤ (i 1).val
      ∧ (i 1).val < win0_6.index ⟨(i 0).val / 8, ht⟩ (1 : Fin 3) * 49 + 49
    rw [e1]; omega
  | ⟨2, _⟩ =>
    show win0_6.index ⟨(i 0).val / 8, ht⟩ (2 : Fin 3) * 512 ≤ (i 2).val
      ∧ (i 2).val < win0_6.index ⟨(i 0).val / 8, ht⟩ (2 : Fin 3) * 512 + 512
    rw [e2]; omega

/-- THE RESULT ARRAY after the run is `G`. -/
theorem final (hblk : BlockIsAttention) (c : Dev nD) : (Gen.dats m 0 c).arrAt 6 cfg0.N = G m c :=
  (Gen.dats m 0 c).arrAt_eq_of_cover 6 (G m c) (fun t _ => flushed_eq m hblk c t) cover

/-! ## The run, read -/

/-- The kernel's run re-posted: the result array at `G`, the arguments unchanged. -/
theorem run (hblk : BlockIsAttention) :
    θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hblk c), (h c).2⟩) (Value.run_blocks m ρ)

/-! ## The bias the region finds -/

open Cert.KernelIdeal.Facts₀ in
/-- The relative-position bias as the region finds it: the host's operations before the region, applied to the bias
    table (169 relative positions by 16 heads) and to the 49 by 49 array of relative-position numbers. A negative
    number is wrapped by 169; each pair of tokens then takes its row of the table, and the heads are moved to the
    front. -/
theorem V_bias (c : Dev nD) :
    (Gen.V m c main_v7 : S16x49x49.Idx → EReal)
      = transpose S16x49x49 [2, 0, 1]
          (Host.gather gather_S169x16_S49x49x1_S49x49x16_2_0_n_n_0_2_116
            (m ((c : Thread nD τ).loc main_arg1) : S169x16.Idx → EReal)
            (broadcastInDim S49x49x1 ![0, 1] bcast_S49x49_S49x49x1_0_1
              (select
                (cmpi .slt (m ((c : Thread nD τ).loc main_arg6) : IVec S49x49 32)
                  (broadcastInDim S49x49 ![] bcast_S_S49x49 (constantI S_ 32 0#32)))
                (addi (m ((c : Thread nD τ).loc main_arg6) : IVec S49x49 32)
                  (broadcastInDim S49x49 ![] bcast_S_S49x49 (constantI S_ 32 169#32)))
                (m ((c : Thread nD τ).loc main_arg6) : IVec S49x49 32))))
          transposes_S49x49x16_S16x49x49_2_0_1 := by
  dsimp only [Gen.V, Gen.hostOps0]; after_results

end Cert.KernelIdeal.Windows

end
-- ==== Proof.ReferenceWindows.lean ====
/-
  The reference program computes, for every window, the window attention of its tokens.

  Each stage of the reference is read at explicit coordinates and identified with the matching function of the
  specification: the fused projection, its three thirds split into heads, the scores, the row maxima, the shifted and
  exponentiated scores, their row sums, the softmax weights, the per-head averages of the values, the heads merged
  channel by channel, and the output projection. Only re-indexing is used: the row-major arithmetic of the reshapes
  and the permutations of the transposes.
-/
import proofs.«105897_j84679575208277_2_alg».proof.Proof.Gen.ReferenceIdeal.Read
import proofs.«105897_j84679575208277_2_alg».proof.Proof.WindowAttention

noncomputable section

namespace Cert.ReferenceIdeal.RefValue

open Cert.ReferenceIdeal Cert.ReferenceIdeal.Gen Cert.ReferenceIdeal.Read Idealize.ShloMosaic Idealize.ShloMosaic.ValueIdx
open Cert.WinAttn
open scoped BigOperators

variable (x0 : (⟨S2048x49x512, .f32⟩ : BufTy).Contents (Elt Ideal)) (x1 : (⟨S169x16, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))
  (x6 : (⟨S49x49, .i32⟩ : BufTy).Contents (Elt Ideal))

/-- The scale of the scores and the start of the row maxima, as the reference spells them. -/
local notation "scl" => (Ideal.ofBits FTy.f32 0x3E3504F3#32 : EReal)
local notation "ninf" => (Ideal.ofBits FTy.f32 0xFF800000#32 : EReal)

/-- The window's tokens, the fused projection's weights and bias, as functions of coordinates. -/
abbrev xw (b : Fin 2048) : Fin 49 → Fin 512 → EReal := fun n c => x0 (ix3 b n c)
abbrev wq : Fin 1536 → Fin 512 → EReal := fun o c => x2 (ix2 o c)
abbrev bq : Fin 1536 → EReal := fun o => x3 (ix1 o)

/-- The fused projection: a contraction over the 512 channels plus the broadcast bias. -/
theorem v3_eq (b : Fin 2048) (n : Fin 49) (o : Fin 1536) :
    val_main_v3 (F := Ideal) x0 x2 x3 (ix3 b n o) = proj (xw x0 b) (wq x2) (bq x3) n o := by
  rw [val_main_v3_apply, val_main_v0_apply, val_main_v2_apply, val_main_v1_apply]
  have el : ∀ k : Fin 512, lidx_main_v0 (ix3 b n o) k = ix3 b n k := fun k =>
    funext fun a => Fin.ext (by match a with | ⟨0, _⟩ => rfl | ⟨1, _⟩ => rfl | ⟨2, _⟩ => rfl)
  have er : ∀ k : Fin 512, ridx_main_v0 (ix3 b n o) k = ix2 o k := fun k =>
    funext fun a => Fin.ext (by match a with | ⟨0, _⟩ => rfl | ⟨1, _⟩ => rfl)
  have eb : idx_main_v1 (idx_main_v2 (ix3 b n o)) = ix1 o :=
    funext fun a => Fin.ext (by match a with | ⟨0, _⟩ => rfl)
  rw [eb]
  simp only [el, er]
  rfl

/-- The reshape 1536 → 3×16×32 followed by the transpose to thirds first: third `s`, head `h`, lane `d` of token
    `n` is column `s·512 + h·32 + d` of the fused projection. -/
theorem v5_eq (s : Fin 3) (b : Fin 2048) (h : Fin 16) (n : Fin 49) (d : Fin 32) :
    val_main_v5 (F := Ideal) x0 x2 x3 (ix5 s b h n d) = proj (xw x0 b) (wq x2) (bq x3) n (col s h d) := by
  rw [val_main_v5_apply, val_main_v4_apply]
  have e5 : idx_main_v5 (ix5 s b h n d) = ix5 b n s h d :=
    funext fun a => Fin.ext (by match a with | ⟨0, _⟩ => rfl | ⟨1, _⟩ => rfl | ⟨2, _⟩ => rfl | ⟨3, _⟩ => rfl | ⟨4, _⟩ => rfl)
  have e4 : idx_main_v4 (ix5 b n s h d) = ix3 b n (col s h d) := by
    have hb := b.isLt; have hn := n.isLt; have hs := s.isLt; have hh := h.isLt; have hd := d.isLt
    funext a
    apply Fin.ext
    match a with
    | ⟨0, _⟩ =>
      show ((((b.val * 49 + n.val) * 3 + s.val) * 16 + h.val) * 32 + d.val) / 75264 = b.val
      omega
    | ⟨1, _⟩ =>
      show ((((b.val * 49 + n.val) * 3 + s.val) * 16 + h.val) * 32 + d.val) / 1536 % 49 = n.val
      omega
    | ⟨2, _⟩ =>
      show ((((b.val * 49 + n.val) * 3 + s.val) * 16 + h.val) * 32 + d.val) % 1536 = s.val * 512 + h.val * 32 + d.val
      omega
  rw [e5, e4]
  exact v3_eq x0 x2 x3 b n (col s h d)

/-- Dropping the unit axis of a slice of the thirds: the row-major position is unchanged. -/
theorem idx_unit (b : Fin 2048) (h : Fin 16) (n : Fin 49) (d : Fin 32) :
    idx_main_v7 (ix4 b h n d) = ix5 (0 : Fin 1) b h n d := by
  have hb := b.isLt; have hn := n.isLt; have hh := h.isLt; have hd := d.isLt
  funext a
  apply Fin.ext
  match a with
  | ⟨0, _⟩ => rfl
  | ⟨1, _⟩ =>
    show (((b.val * 16 + h.val) * 49 + n.val) * 32 + d.val) / 25088 % 2048 = b.val
    omega
  | ⟨2, _⟩ =>
    show (((b.val * 16 + h.val) * 49 + n.val) * 32 + d.val) / 1568 % 16 = h.val
    omega
  | ⟨3, _⟩ =>
    show (((b.val * 16 + h.val) * 49 + n.val) * 32 + d.val) / 32 % 49 = n.val
    omega
  | ⟨4, _⟩ =>
    show (((b.val * 16 + h.val) * 49 + n.val) * 32 + d.val) % 32 = d.val
    omega

/-- The queries: the first third. -/
theorem v7_eq (b : Fin 2048) (h : Fin 16) (n : Fin 49) (d : Fin 32) :
    val_main_v7 (F := Ideal) x0 x2 x3 (ix4 b h n d) = proj (xw x0 b) (wq x2) (bq x3) n (col 0 h d) := by
  rw [val_main_v7_apply, val_main_v6_apply, idx_unit]
  have e6 : idx_main_v6 (ix5 (0 : Fin 1) b h n d) = ix5 (0 : Fin 3) b h n d :=
    funext fun a => Fin.ext (by match a with | ⟨0, _⟩ => rfl | ⟨1, _⟩ => rfl | ⟨2, _⟩ => rfl | ⟨3, _⟩ => rfl | ⟨4, _⟩ => rfl)
  rw [e6]
  exact v5_eq x0 x2 x3 0 b h n d

/-- The keys: the second third. -/
theorem v9_eq (b : Fin 2048) (h : Fin 16) (n : Fin 49) (d : Fin 32) :
    val_main_v9 (F := Ideal) x0 x2 x3 (ix4 b h n d) = proj (xw x0 b) (wq x2) (bq x3) n (col 1 h d) := by
  rw [val_main_v9_apply, val_main_v8_apply]
  have e7 : idx_main_v9 (ix4 b h n d) = ix5 (0 : Fin 1) b h n d := idx_unit b h n d
  have e6 : idx_main_v8 (ix5 (0 : Fin 1) b h n d) = ix5 (1 : Fin 3) b h n d :=
    funext fun a => Fin.ext (by match a with | ⟨0, _⟩ => rfl | ⟨1, _⟩ => rfl | ⟨2, _⟩ => rfl | ⟨3, _⟩ => rfl | ⟨4, _⟩ => rfl)
  rw [e7, e6]
  exact v5_eq x0 x2 x3 1 b h n d

/-- The values: the last third. -/
theorem v11_eq (b : Fin 2048) (h : Fin 16) (n : Fin 49) (d : Fin 32) :
    val_main_v11 (F := Ideal) x0 x2 x3 (ix4 b h n d) = proj (xw x0 b) (wq x2) (bq x3) n (col 2 h d) := by
  rw [val_main_v11_apply, val_main_v10_apply]
  have e7 : idx_main_v11 (ix4 b h n d) = ix5 (0 : Fin 1) b h n d := idx_unit b h n d
  have e6 : idx_main_v10 (ix5 (0 : Fin 1) b h n d) = ix5 (2 : Fin 3) b h n d :=
    funext fun a => Fin.ext (by match a with | ⟨0, _⟩ => rfl | ⟨1, _⟩ => rfl | ⟨2, _⟩ => rfl | ⟨3, _⟩ => rfl | ⟨4, _⟩ => rfl)
  rw [e7, e6]
  exact v5_eq x0 x2 x3 2 b h n d

/-- The relative-position bias, one table per head, as the reference lays it out (the gathered table transposed). -/
abbrev bs : Fin 16 → Fin 49 → Fin 49 → EReal := fun h n m => val_main_v19 (F := Ideal) x1 x6 (ix3 h n m)

/-- The scaled queries. -/
theorem v22_eq (b : Fin 2048) (h : Fin 16) (n : Fin 49) (d : Fin 32) :
    val_main_v22 (F := Ideal) x0 x2 x3 (ix4 b h n d) = proj (xw x0 b) (wq x2) (bq x3) n (col 0 h d) * scl := by
  rw [val_main_v22_apply, v7_eq, val_main_v21_apply, val_main_cst_apply]
  rfl

/-- The bias broadcast over the windows. -/
theorem v24_eq (b : Fin 2048) (h : Fin 16) (n m : Fin 49) :
    val_main_v24 (F := Ideal) x1 x6 (ix4 b h n m) = bs x1 x6 h n m := by
  rw [val_main_v24_apply, val_main_v20_apply]
  have e : idx_main_v20 (idx_main_v24 (ix4 b h n m)) = ix3 h n m :=
    funext fun a => Fin.ext (by match a with | ⟨0, _⟩ => rfl | ⟨1, _⟩ => rfl | ⟨2, _⟩ => rfl)
  rw [e]

/-- The scores: scaled query against key over the 32 lanes, plus the bias. -/
theorem v25_eq (b : Fin 2048) (h : Fin 16) (n m : Fin 49) :
    val_main_v25 (F := Ideal) x0 x1 x2 x3 x6 (ix4 b h n m)
      = score scl (xw x0 b) (wq x2) (bq x3) (bs x1 x6) h n m := by
  rw [val_main_v25_apply, val_main_v23_apply, v24_eq]
  have el : ∀ k : Fin 32, lidx_main_v23 (ix4 b h n m) k = ix4 b h n k := fun k =>
    funext fun a => Fin.ext (by match a with | ⟨0, _⟩ => rfl | ⟨1, _⟩ => rfl | ⟨2, _⟩ => rfl | ⟨3, _⟩ => rfl)
  have er : ∀ k : Fin 32, ridx_main_v23 (ix4 b h n m) k = ix4 b h m k := fun k =>
    funext fun a => Fin.ext (by match a with | ⟨0, _⟩ => rfl | ⟨1, _⟩ => rfl | ⟨2, _⟩ => rfl | ⟨3, _⟩ => rfl)
  simp only [el, er, v22_eq, v9_eq]
  rfl

/-- The last axis of the scores is the one the row reductions run over. -/
theorem reduces_last : S2048x16x49x49.Reduces [3] S2048x16x49 := by decide

/-- A row of scores with the reduced coordinate inserted last. -/
theorem lift_last (b : Fin 2048) (h : Fin 16) (n m : Fin 49) :
    reduces_last.lift (ix3 b h n) m = ix4 b h n m :=
  funext fun a => Fin.ext (by match a with | ⟨0, _⟩ => rfl | ⟨1, _⟩ => rfl | ⟨2, _⟩ => rfl | ⟨3, _⟩ => rfl)

/-- The maximum of a row of scores, folded from `-∞`. -/
theorem v26_eq (b : Fin 2048) (h : Fin 16) (n : Fin 49) :
    val_main_v26 (F := Ideal) x0 x1 x2 x3 x6 (ix3 b h n)
      = (Finset.univ : Finset (Fin 49)).fold max ninf
          (fun m => score scl (xw x0 b) (wq x2) (bq x3) (bs x1 x6) h n m) := by
  unfold val_main_v26
  refine Eq.trans (Host.reduce_eq_fold_single FloatOps.maximumf _ _ reducesTo_S2048x16x49x49_S2048x16x49_d3
    reduces_last h_S_ (ix3 b h n)) ?_
  have e : (val_main_v25 (F := Ideal) x0 x1 x2 x3 x6 ∘ reduces_last.lift (ix3 b h n))
      = fun m : Fin 49 => score scl (xw x0 b) (wq x2) (bq x3) (bs x1 x6) h n m := by
    have key : ∀ m : Fin 49, val_main_v25 (F := Ideal) x0 x1 x2 x3 x6 (reduces_last.lift (ix3 b h n) m)
        = score scl (xw x0 b) (wq x2) (bq x3) (bs x1 x6) h n m := fun m => by rw [lift_last, v25_eq]
    funext m
    exact key m
  rw [e]
  rfl

/-- The row maximum, met once more with `-∞`. -/
theorem v28_eq (b : Fin 2048) (h : Fin 16) (n : Fin 49) :
    val_main_v28 (F := Ideal) x0 x1 x2 x3 x6 (ix3 b h n)
      = rowMax scl ninf (xw x0 b) (wq x2) (bq x3) (bs x1 x6) h n := by
  rw [val_main_v28_apply, v26_eq, val_main_v27_apply, val_main_cst_2_apply]
  rfl

/-- The scores less their row's maximum. -/
theorem v31_eq (b : Fin 2048) (h : Fin 16) (n m : Fin 49) :
    val_main_v31 (F := Ideal) x0 x1 x2 x3 x6 (ix4 b h n m)
      = shifted scl ninf (xw x0 b) (wq x2) (bq x3) (bs x1 x6) h n m := by
  rw [val_main_v31_apply, v25_eq, val_main_v30_apply, val_main_v29_apply]
  have e : idx_main_v29 (idx_main_v30 (ix4 b h n m)) = ix3 b h n :=
    funext fun a => Fin.ext (by match a with | ⟨0, _⟩ => rfl | ⟨1, _⟩ => rfl | ⟨2, _⟩ => rfl)
  rw [e, v28_eq]
  rfl

/-- Their exponentials. -/
theorem v32_eq (b : Fin 2048) (h : Fin 16) (n m : Fin 49) :
    val_main_v32 (F := Ideal) x0 x1 x2 x3 x6 (ix4 b h n m)
      = Ideal.exp (shifted scl ninf (xw x0 b) (wq x2) (bq x3) (bs x1 x6) h n m) := by
  rw [val_main_v32_apply, v31_eq]
  rfl

/-- The row sums of the exponentials: the sum starts from zero. -/
theorem v33_eq (b : Fin 2048) (h : Fin 16) (n : Fin 49) :
    val_main_v33 (F := Ideal) x0 x1 x2 x3 x6 (ix3 b h n)
      = ∑ m : Fin 49, Ideal.exp (shifted scl ninf (xw x0 b) (wq x2) (bq x3) (bs x1 x6) h n m) := by
  rw [val_main_v33_apply, val_main_cst_3_apply]
  have e : ∀ k : Fin 49, idx_main_v33 (ix3 b h n) k = ix4 b h n k := fun k =>
    funext fun a => Fin.ext (by match a with | ⟨0, _⟩ => rfl | ⟨1, _⟩ => rfl | ⟨2, _⟩ => rfl | ⟨3, _⟩ => rfl)
  simp only [e, v32_eq]
  rw [Ideal.ofBits_def, Ideal.ofBits_zero_f32, zero_add]

/-- The softmax weights. -/
theorem v36_eq (b : Fin 2048) (h : Fin 16) (n m : Fin 49) :
    val_main_v36 (F := Ideal) x0 x1 x2 x3 x6 (ix4 b h n m)
      = weight scl ninf (xw x0 b) (wq x2) (bq x3) (bs x1 x6) h n m := by
  rw [val_main_v36_apply, v32_eq, val_main_v35_apply, val_main_v34_apply]
  have e : idx_main_v34 (idx_main_v35 (ix4 b h n m)) = ix3 b h n :=
    funext fun a => Fin.ext (by match a with | ⟨0, _⟩ => rfl | ⟨1, _⟩ => rfl | ⟨2, _⟩ => rfl)
  rw [e, v33_eq]
  rfl

/-- Each head's weighted average of the values. -/
theorem v37_eq (b : Fin 2048) (h : Fin 16) (n : Fin 49) (d : Fin 32) :
    val_main_v37 (F := Ideal) x0 x1 x2 x3 x6 (ix4 b h n d)
      = ctx scl ninf (xw x0 b) (wq x2) (bq x3) (bs x1 x6) h n d := by
  rw [val_main_v37_apply]
  have el : ∀ k : Fin 49, lidx_main_v37 (ix4 b h n d) k = ix4 b h n k := fun k =>
    funext fun a => Fin.ext (by match a with | ⟨0, _⟩ => rfl | ⟨1, _⟩ => rfl | ⟨2, _⟩ => rfl | ⟨3, _⟩ => rfl)
  have er : ∀ k : Fin 49, ridx_main_v37 (ix4 b h n d) k = ix4 b h k d := fun k =>
    funext fun a => Fin.ext (by match a with | ⟨0, _⟩ => rfl | ⟨1, _⟩ => rfl | ⟨2, _⟩ => rfl | ⟨3, _⟩ => rfl)
  simp only [el, er, v36_eq, v11_eq]
  rfl

/-- The heads laid side by side again: channel `o` is lane `o mod 32` of head `o / 32`. -/
theorem v39_eq (b : Fin 2048) (n : Fin 49) (o : Fin 512) :
    val_main_v39 (F := Ideal) x0 x1 x2 x3 x6 (ix3 b n o)
      = ctx scl ninf (xw x0 b) (wq x2) (bq x3) (bs x1 x6) (headOf o) n (laneOf o) := by
  rw [val_main_v39_apply, val_main_v38_apply]
  have e : idx_main_v38 (idx_main_v39 (ix3 b n o)) = ix4 b (headOf o) n (laneOf o) := by
    have hb := b.isLt; have hn := n.isLt; have ho := o.isLt
    funext a
    apply Fin.ext
    match a with
    | ⟨0, _⟩ =>
      show ((b.val * 49 + n.val) * 512 + o.val) / 25088 = b.val
      omega
    | ⟨1, _⟩ =>
      show ((b.val * 49 + n.val) * 512 + o.val) / 32 % 16 = o.val / 32
      omega
    | ⟨2, _⟩ =>
      show ((b.val * 49 + n.val) * 512 + o.val) / 512 % 49 = n.val
      omega
    | ⟨3, _⟩ =>
      show ((b.val * 49 + n.val) * 512 + o.val) % 32 = o.val % 32
      omega
  rw [e, v37_eq]

/-- The reference's result at window `b`, token `n`, channel `c` is the window attention of window `b`'s tokens. -/
theorem reference_apply (b : Fin 2048) (n : Fin 49) (c : Fin 512) :
    Read.val_main_v43 x0 x1 x2 x3 x4 x5 x6 (ix3 b n c)
      = Cert.WinAttn.out (Ideal.ofBits .f32 0x3E3504F3#32) (Ideal.ofBits .f32 0xFF800000#32)
          (fun n c => x0 (ix3 b n c)) (fun o c => x2 (ix2 o c)) (fun o => x3 (ix1 o)) (fun c o => x4 (ix2 c o))
          (fun c => x5 (ix1 c)) (fun h n m => Read.val_main_v19 x1 x6 (ix3 h n m)) n c := by
  rw [val_main_v43_apply, val_main_v40_apply, val_main_v42_apply, val_main_v41_apply]
  have el : ∀ k : Fin 512, lidx_main_v40 (ix3 b n c) k = ix3 b n k := fun k =>
    funext fun a => Fin.ext (by match a with | ⟨0, _⟩ => rfl | ⟨1, _⟩ => rfl | ⟨2, _⟩ => rfl)
  have er : ∀ k : Fin 512, ridx_main_v40 (ix3 b n c) k = ix2 c k := fun k =>
    funext fun a => Fin.ext (by match a with | ⟨0, _⟩ => rfl | ⟨1, _⟩ => rfl)
  have eb : idx_main_v41 (idx_main_v42 (ix3 b n c)) = ix1 c :=
    funext fun a => Fin.ext (by match a with | ⟨0, _⟩ => rfl)
  rw [eb]
  simp only [el, er, v39_eq]
  rfl

end Cert.ReferenceIdeal.RefValue

end
-- ==== Proof.lean ====
/-
  Windowed multi-head attention with a relative-position bias, over 2048 windows of 49 tokens and 512 channels:
  a kernel that handles 8 windows per grid point against a reference that handles all windows at once.

  Both programs compute, for every window on its own, `Cert.WinAttn.out` of the window's tokens (WindowAttention.lean):
  the fused query/key/value projection, per head the scaled scores plus the bias, the softmax of each row of scores
  (shifted by the row maximum), the weighted average of the values, and the output projection of the merged heads.
  They differ in how the arrays are laid out on the way — the kernel flattens (window, token) into rows and (window,
  head) into one batch coordinate, the reference keeps five- and four-axis arrays and transposes them — and in which
  order the entries of each sum are listed. On the extended reals a finite sum does not depend on that order, a change
  of float format is the identity, and the two spellings of the scale, of `-∞` and of `0` are the same bit patterns;
  so no fact about the inputs is used, not even that they are finite.

  * KernelMatmuls / KernelLayout / KernelBlock: what one grid point writes, entry by entry (`Block.block_apply`).
  * KernelArray: the 256 blocks of 8 windows tile the result, so the result array is `Windows.G`, entry (w, n, c) the
    attention of window w (`Windows.run`).
  * ReferenceWindows: the reference's result read entry by entry is the same function (`RefValue.reference_apply`).
  The relative-position bias is gathered from its table by the same host operations in both programs; that term is
  carried along unopened and the two copies are identified at the end.

  The three frame claims are the generated frame runs (the reference's: its generated run with the result dropped);
  the kernel's idealization rewrote nothing, so `preserves` is `True`.
-/
import proofs.«105897_j84679575208277_2_alg».proof.Defs
import proofs.«105897_j84679575208277_2_alg».proof.Proof.Gen.Kernel
import proofs.«105897_j84679575208277_2_alg».proof.Proof.Gen.Kernel.Skeleton
import proofs.«105897_j84679575208277_2_alg».proof.Proof.Gen.Kernel.Launch
import proofs.«105897_j84679575208277_2_alg».proof.Proof.Gen.Kernel.Points
import proofs.«105897_j84679575208277_2_alg».proof.Proof.Gen.Kernel.Frame
import proofs.«105897_j84679575208277_2_alg».proof.Proof.Gen.KernelIdeal
import proofs.«105897_j84679575208277_2_alg».proof.Proof.Gen.KernelIdeal.Skeleton
import proofs.«105897_j84679575208277_2_alg».proof.Proof.Gen.KernelIdeal.Launch
import proofs.«105897_j84679575208277_2_alg».proof.Proof.Gen.KernelIdeal.Points
import proofs.«105897_j84679575208277_2_alg».proof.Proof.Gen.KernelIdeal.Frame
import proofs.«105897_j84679575208277_2_alg».proof.Proof.Gen.ReferenceIdeal
import proofs.«105897_j84679575208277_2_alg».proof.Proof.Gen.Pre_finite_inputs
import proofs.«105897_j84679575208277_2_alg».proof.Proof.Gen.KernelIdeal.Value
import proofs.«105897_j84679575208277_2_alg».proof.Proof.Gen.ReferenceIdeal.Run
import proofs.«105897_j84679575208277_2_alg».proof.Proof.Gen.ReferenceIdeal.Read
import proofs.«105897_j84679575208277_2_alg».proof.Proof.KernelBlock
import proofs.«105897_j84679575208277_2_alg».proof.Proof.KernelArray
import proofs.«105897_j84679575208277_2_alg».proof.Proof.ReferenceWindows
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Every grid point's block is the window attention of its eight windows. -/
theorem blockIsAttention : Cert.KernelIdeal.Windows.BlockIsAttention :=
  fun x0 x1 x2 x3 x4 x5 b n c => Cert.KernelIdeal.Block.block_apply x0 x1 x2 x3 x4 x5 b n c

/-- From memories that agree on the arguments both programs end with the result array at `Windows.G`: entry
    (w, n, c) is the attention of window w's tokens. -/
theorem algebraic : Cert.algebraic_KernelIdeal_ReferenceIdeal := by
  intro m ρ m' ρ' _ hagree
  refine ⟨Cert.KernelIdeal.Windows.G m, Cert.KernelIdeal.Windows.run m ρ blockIsAttention, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v43_eq, h0, h1, h2, h3, h4, h5, h6]
  funext i
  obtain ⟨w, n, ch, rfl⟩ : ∃ (w : Fin 2048) (n : Fin 49) (ch : Fin 512), i = ix3 w n ch := ⟨i 0, i 1, i 2, eq_ix3 i⟩
  show _ = Cert.KernelIdeal.Windows.G m c (ix3 w n ch)
  rw [Cert.ReferenceIdeal.RefValue.reference_apply, Cert.KernelIdeal.Windows.G_apply,
    Cert.KernelIdeal.Gen.V_main_arg0 m c, Cert.KernelIdeal.Gen.V_main_arg2 m c, Cert.KernelIdeal.Gen.V_main_arg3 m c,
    Cert.KernelIdeal.Gen.V_main_arg4 m c, Cert.KernelIdeal.Gen.V_main_arg5 m c, Cert.KernelIdeal.Windows.V_bias m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
